-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v594) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x18 : Shape := ⟨2, ![2097152, 18]⟩
abbrev S6x2 : Shape := ⟨2, ![6, 2]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S_ : Shape := ⟨0, ![]⟩

class Facts : Prop where
  bcast_S_S2097152x18 : S_.BroadcastsInDim S2097152x18 (![] : Fin 0 → Fin S2097152x18.rank)
  reducesTo_S2097152x18_S_d0_1 : S2097152x18.ReducesTo [0, 1] S_
  h_S_ : 0 < S_.numel
  bcast_S_S6x2 : S_.BroadcastsInDim S6x2 (![] : Fin 0 → Fin S6x2.rank)
  reducesTo_S6x2_S_d0_1 : S6x2.ReducesTo [0, 1] S_
  bcast_S_S6 : S_.BroadcastsInDim S6 (![] : Fin 0 → Fin S6.rank)
  reducesTo_S6_S_d0 : S6.ReducesTo [0] S_
  bcast_S_S2x6 : S_.BroadcastsInDim S2x6 (![] : Fin 0 → Fin S2x6.rank)
  reducesTo_S2x6_S_d0_1 : S2x6.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x2 .f32) (main_arg12 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S1x2 .f32 := Host.absf main_arg11
  let main_cst_20 : FVec F S_ .f32 := constant S_ .f32 0x7F800000#32
  let main_v55 : FVec F S1x2 .f32 := broadcastInDim S1x2 ![] bcast_S_S1x2 main_cst_20
  let main_v56 : IVec S1x2 1 := cmpf .olt main_v54 main_v55
  let main_c_21 : IVec S_ 1 := constantI S_ 1 1#1
  let main_v57 : IVec S_ 1 := (fun x v => Host.reduce IntOp.andi x v reducesTo_S1x2_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S6x2 .f32) (main_arg8 : FVec F S6x2 .f32) (main_arg9 : FVec F S6 .f32) (main_arg10 : FVec F S6 .f32) (main_arg11 : FVec F S1x2 .f32) (main_arg12 : FVec F S1 .f32) (main_v33 : IVec S_ 1) : IVec S_ 1 :=
  let main_v34 : FVec F S6x2 .f32 := Host.absf main_arg7
  let main_cst_12 : FVec F S_ .f32 := constant S_ .f32 0x7F800000#32
  let main_v35 : FVec F S6x2 .f32 := broadcastInDim S6x2 ![] bcast_S_S6x2 main_cst_12
  let main_v36 : IVec S6x2 1 := cmpf .olt main_v34 main_v35
  let main_c_13 : IVec S_ 1 := constantI S_ 1 1#1
  let main_v37 : IVec S_ 1 := (fun x v => Host.reduce IntOp.andi x v reducesTo_S6x2_S_d0_1 h_S_) main_v36 main_c_13
  let main_v38 : IVec S_ 1 := andi main_v33 main_v37
  let main_v39 : FVec F S6x2 .f32 := Host.absf main_arg8
  let main_cst_14 : FVec F S_ .f32 := constant S_ .f32 0x7F800000#32
  let main_v40 : FVec F S6x2 .f32 := broadcastInDim S6x2 ![] bcast_S_S6x2 main_cst_14
  let main_v41 : IVec S6x2 1 := cmpf .olt main_v39 main_v40
  let main_c_15 : IVec S_ 1 := constantI S_ 1 1#1
  let main_v42 : IVec S_ 1 := (fun x v => Host.reduce IntOp.andi x v reducesTo_S6x2_S_d0_1 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S6 .f32 := Host.absf main_arg10
  let main_cst_18 : FVec F S_ .f32 := constant S_ .f32 0x7F800000#32
  let main_v50 : FVec F S6 .f32 := broadcastInDim S6 ![] bcast_S_S6 main_cst_18
  fn_part3 (F := F) main_arg11 main_arg12 main_v48 main_v49 main_v50

def fn_part1 {F : FTy → Type} [FloatOps F] (main_arg4 : FVec F S6 .f32) (main_arg5 : FVec F S2x6 .f32) (main_arg6 : FVec F S2 .f32) (main_arg7 : FVec F S6x2 .f32) (main_arg8 : FVec F S6x2 .f32) (main_arg9 : FVec F S6 .f32) (main_arg10 : FVec F S6 .f32) (main_arg11 : FVec F S1x2 .f32) (main_arg12 : FVec F S1 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S2x6 .f32 := Host.absf main_arg5
  let main_cst_8 : FVec F S_ .f32 := constant S_ .f32 0x7F800000#32
  let main_v25 : FVec F S2x6 .f32 := broadcastInDim S2x6 ![] bcast_S_S2x6 main_cst_8
  let main_v26 : IVec S2x6 1 := cmpf .olt main_v24 main_v25
  let main_c_9 : IVec S_ 1 := constantI S_ 1 1#1
  let main_v27 : IVec S_ 1 := (fun x v => Host.reduce IntOp.andi x v reducesTo_S2x6_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2097152x18 .f32) (main_arg1 : FVec F S6x2 .f32) (main_arg2 : FVec F S6x2 .f32) (main_arg3 : FVec F S6 .f32) (main_arg4 : FVec F S6 .f32) (main_arg5 : FVec F S2x6 .f32) (main_arg6 : FVec F S2 .f32) (main_arg7 : FVec F S6x2 .f32) (main_arg8 : FVec F S6x2 .f32) (main_arg9 : FVec F S6 .f32) (main_arg10 : FVec F S6 .f32) (main_arg11 : FVec F S1x2 .f32) (main_arg12 : FVec F S1 .f32) : IVec S_ 1 :=
  let main_v0 : FVec F S2097152x18 .f32 := Host.absf main_arg0
  let main_cst : FVec F S_ .f32 := constant S_ .f32 0x7F800000#32
  let main_v1 : FVec F S2097152x18 .f32 := broadcastInDim S2097152x18 ![] bcast_S_S2097152x18 main_cst
  let main_v2 : IVec S2097152x18 1 := cmpf .olt main_v0 main_v1
  let main_c : IVec S_ 1 := constantI S_ 1 1#1
  let main_v3 : IVec S_ 1 := (fun x v => Host.reduce IntOp.andi x v reducesTo_S2097152x18_S_d0_1 h_S_) main_v2 main_c
  let main_v4 : FVec F S6x2 .f32 := Host.absf main_arg1
  let main_cst_0 : FVec F S_ .f32 := constant S_ .f32 0x7F800000#32
  let main_v5 : FVec F S6x2 .f32 := broadcastInDim S6x2 ![] bcast_S_S6x2 main_cst_0
  let main_v6 : IVec S6x2 1 := cmpf .olt main_v4 main_v5
  let main_c_1 : IVec S_ 1 := constantI S_ 1 1#1
  let main_v7 : IVec S_ 1 := (fun x v => Host.reduce IntOp.andi x v reducesTo_S6x2_S_d0_1 h_S_) main_v6 main_c_1
  let main_v8 : IVec S_ 1 := andi main_v3 main_v7
  let main_v9 : FVec F S6x2 .f32 := Host.absf main_arg2
  let main_cst_2 : FVec F S_ .f32 := constant S_ .f32 0x7F800000#32
  let main_v10 : FVec F S6x2 .f32 := broadcastInDim S6x2 ![] bcast_S_S6x2 main_cst_2
  let main_v11 : IVec S6x2 1 := cmpf .olt main_v9 main_v10
  let main_c_3 : IVec S_ 1 := constantI S_ 1 1#1
  let main_v12 : IVec S_ 1 := (fun x v => Host.reduce IntOp.andi x v reducesTo_S6x2_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_arg8 main_arg9 main_arg10 main_arg11 main_arg12 main_v13 main_v16
-- ==== Kernel.lean ====
abbrev S2097152x18 : Shape := ⟨2, ![2097152, 18]⟩
abbrev S6x2 : Shape := ⟨2, ![6, 2]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S1x6 : Shape := ⟨2, ![1, 6]⟩
abbrev S1x1 : Shape := ⟨2, ![1, 1]⟩
abbrev S2097152x7 : Shape := ⟨2, ![2097152, 7]⟩
abbrev S1024x18 : Shape := ⟨2, ![1024, 18]⟩
abbrev S1024x7 : Shape := ⟨2, ![1024, 7]⟩
abbrev S1024x4 : Shape := ⟨2, ![1024, 4]⟩
abbrev S1024x2 : Shape := ⟨2, ![1024, 2]⟩
abbrev S1024x1 : Shape := ⟨2, ![1024, 1]⟩
abbrev S1024x6 : Shape := ⟨2, ![1024, 6]⟩
abbrev S2x1 : Shape := ⟨2, ![2, 1]⟩

abbrev nBuf : Space → Nat
  | .hbm => 20
  | .vmem => 16
  | .smem => 0
  | _ => 0

abbrev bufTy : (tb : Table) → Fin (tcTables nBuf tb) → BufTy
  | .hbm, ⟨0, _⟩ => ⟨S2097152x18, .f32⟩
  | .hbm, ⟨1, _⟩ => ⟨S6x2, .f32⟩
  | .hbm, ⟨2, _⟩ => ⟨S6x2, .f32⟩
  | .hbm, ⟨3, _⟩ => ⟨S6, .f32⟩
  | .hbm, ⟨4, _⟩ => ⟨S6, .f32⟩
  | .hbm, ⟨5, _⟩ => ⟨S2x6, .f32⟩
  | .hbm, ⟨6, _⟩ => ⟨S2, .f32⟩
  | .hbm, ⟨7, _⟩ => ⟨S6x2, .f32⟩
  | .hbm, ⟨8, _⟩ => ⟨S6x2, .f32⟩
  | .hbm, ⟨9, _⟩ => ⟨S6, .f32⟩
  | .hbm, ⟨10, _⟩ => ⟨S6, .f32⟩
  | .hbm, ⟨11, _⟩ => ⟨S1x2, .f32⟩
  | .hbm, ⟨12, _⟩ => ⟨S1, .f32⟩
  | .hbm, ⟨13, _⟩ => ⟨S1x6, .f32⟩
  | .hbm, ⟨14, _⟩ => ⟨S1x6, .f32⟩
  | .hbm, ⟨15, _⟩ => ⟨S1x2, .f32⟩
  | .hbm, ⟨16, _⟩ => ⟨S1x6, .f32⟩
  | .hbm, ⟨17, _⟩ => ⟨S1x6, .f32⟩
  | .hbm, ⟨18, _⟩ => ⟨S1x1, .f32⟩
  | .hbm, ⟨19, _⟩ => ⟨S2097152x7, .f32⟩
  | .local _ .vmem, ⟨0, _⟩ => ⟨S1024x18, .f32⟩
  | .local _ .vmem, ⟨1, _⟩ => ⟨S1024x18, .f32⟩
  | .local _ .vmem, ⟨2, _⟩ => ⟨S6x2, .f32⟩
  | .local _ .vmem, ⟨3, _⟩ => ⟨S6x2, .f32⟩
  | .local _ .vmem, ⟨4, _⟩ => ⟨S1x6, .f32⟩
  | .local _ .vmem, ⟨5, _⟩ => ⟨S1x6, .f32⟩
  | .local _ .vmem, ⟨6, _⟩ => ⟨S2x6, .f32⟩
  | .local _ .vmem, ⟨7, _⟩ => ⟨S1x2, .f32⟩
  | .local _ .vmem, ⟨8, _⟩ => ⟨S6x2, .f32⟩
  | .local _ .vmem, ⟨9, _⟩ => ⟨S6x2, .f32⟩
  | .local _ .vmem, ⟨10, _⟩ => ⟨S1x6, .f32⟩
  | .local _ .vmem, ⟨11, _⟩ => ⟨S1x6, .f32⟩
  | .local _ .vmem, ⟨12, _⟩ => ⟨S1x2, .f32⟩
  | .local _ .vmem, ⟨13, _⟩ => ⟨S1x1, .f32⟩
  | .local _ .vmem, ⟨14, _⟩ => ⟨S1024x7, .f32⟩
  | .local _ .vmem, ⟨15, _⟩ => ⟨S1024x7, .f32⟩
  | _, _ => ⟨S2097152x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x7 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S6_S1x6 : S6.ShapeCasts S1x6
  shapeCasts_S2_S1x2 : S2.ShapeCasts S1x2
  shapeCasts_S1_S1x1 : S1.ShapeCasts S1x1
  inb_S1024x18_S1024x18_0_0 : ∀ a, (![0, 0] : Fin 2 → Nat) a + S1024x18.size a ≤ S1024x18.size a
  h_S1024x18 : 0 < S1024x18.numel
  slices_S1024x18_o0_0_S1024x4 : S1024x18.Slices ![0, 0] S1024x4
  slices_S1024x18_o0_4_S1024x7 : S1024x18.Slices ![0, 4] S1024x7
  slices_S1024x18_o0_11_S1024x7 : S1024x18.Slices ![0, 11] S1024x7
  inb_S6x2_S6x2_0_0 : ∀ a, (![0, 0] : Fin 2 → Nat) a + S6x2.size a ≤ S6x2.size a
  h_S6x2 : 0 < S6x2.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S2x6_S2x6_0_0 : ∀ a, (![0, 0] : Fin 2 → Nat) a + S2x6.size a ≤ S2x6.size a
  h_S2x6 : 0 < S2x6.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S1024x7_o0_6_S1024x1 : S1024x7.Slices ![0, 6] S1024x1
  concatenates_S1024x1_S1024x1_S1024x2_d1 : Shape.Concatenates [S1024x1, S1024x1] S1024x2 1
  transposes_S6x2_p1_0_S2x6 : S6x2.Transposes [1, 0] S2x6
  broadcasts_S1x6_S1024x6 : S1x6.Broadcasts S1024x6
  slices_S1024x6_o0_0_S1024x2 : S1024x6.Slices ![0, 0] S1024x2
  slices_S1024x6_o0_2_S1024x2 : S1024x6.Slices ![0, 2] S1024x2
  slices_S1024x6_o0_4_S1024x2 : S1024x6.Slices ![0, 4] S1024x2
  slices_S1024x7_o0_5_S1024x1 : S1024x7.Slices ![0, 5] S1024x1
  slices_S1024x7_o0_4_S1024x1 : S1024x7.Slices ![0, 4] S1024x1
  slices_S1024x7_o0_3_S1024x1 : S1024x7.Slices ![0, 3] S1024x1
  slices_S1024x7_o0_2_S1024x1 : S1024x7.Slices ![0, 2] S1024x1
  slices_S1024x7_o0_1_S1024x1 : S1024x7.Slices ![0, 1] S1024x1
  slices_S1024x7_o0_0_S1024x1 : S1024x7.Slices ![0, 0] S1024x1
  concatenates_S1024x4_S1024x2_S1024x6_d1 : Shape.Concatenates [S1024x4, S1024x2] S1024x6 1
  transposes_S2x6_p1_0_S6x2 : S2x6.Transposes [1, 0] S6x2
  broadcasts_S1x2_S1024x2 : S1x2.Broadcasts S1024x2
  transposes_S1x2_p1_0_S2x1 : S1x2.Transposes [1, 0] S2x1
  broadcasts_S1x1_S1024x1 : S1x1.Broadcasts S1024x1
  concatenates_S1024x1_S1024x1_S1024x1_S1024x1_S1024x1_S1024x1_S1024x1_S1024x7_d1 : Shape.Concatenates [S1024x1, S1024x1, S1024x1, S1024x1, S1024x1, S1024x1, S1024x1] S1024x7 1
  inb_S1024x7_S1024x7_0_0 : ∀ a, (![0, 0] : Fin 2 → Nat) a + S1024x7.size a ≤ S1024x7.size a
  h_S1024x7 : 0 < S1024x7.numel
  dot_S1024x2_S2x6_S1024x6_1_0_0_1_n_n_wf : DotDims.WF S1024x2 S2x6 S1024x6 [1] [0] [0] [1] [] []
  dot_S1024x6_S6x2_S1024x2_1_0_0_1_n_n_wf : DotDims.WF S1024x6 S6x2 S1024x2 [1] [0] [0] [1] [] []
  dot_S1024x2_S2x1_S1024x1_1_0_0_1_n_n_wf : DotDims.WF S1024x2 S2x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x18.size a ≤ S2097152x18.size a
  hwx0_0 : ∀ i : grid0.Coords, EltTy.bits .f32 = 32 ∨ (Rect.block (s := S2097152x18) S1024x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x2.size a ≤ S6x2.size a
  hwx0_1 : ∀ i : grid0.Coords, EltTy.bits .f32 = 32 ∨ (Rect.block (s := S6x2) S6x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x2.size a ≤ S6x2.size a
  hwx0_2 : ∀ i : grid0.Coords, EltTy.bits .f32 = 32 ∨ (Rect.block (s := S6x2) S6x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x6.size a ≤ S1x6.size a
  hwx0_3 : ∀ i : grid0.Coords, EltTy.bits .f32 = 32 ∨ (Rect.block (s := S1x6) S1x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6.size a ≤ S1x6.size a
  hwx0_4 : ∀ i : grid0.Coords, EltTy.bits .f32 = 32 ∨ (Rect.block (s := S1x6) S1x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x6.size a ≤ S2x6.size a
  hwx0_5 : ∀ i : grid0.Coords, EltTy.bits .f32 = 32 ∨ (Rect.block (s := S2x6) S2x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x2.size a ≤ S6x2.size a
  hwx0_7 : ∀ i : grid0.Coords, EltTy.bits .f32 = 32 ∨ (Rect.block (s := S6x2) S6x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x2.size a ≤ S6x2.size a
  hwx0_8 : ∀ i : grid0.Coords, EltTy.bits .f32 = 32 ∨ (Rect.block (s := S6x2) S6x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x6.size a ≤ S1x6.size a
  hwx0_9 : ∀ i : grid0.Coords, EltTy.bits .f32 = 32 ∨ (Rect.block (s := S1x6) S1x6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x6.size a ≤ S1x6.size a
  hwx0_10 : ∀ i : grid0.Coords, EltTy.bits .f32 = 32 ∨ (Rect.block (s := S1x6) S1x6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2.size a ≤ S1x2.size a
  hwx0_11 : ∀ i : grid0.Coords, EltTy.bits .f32 = 32 ∨ (Rect.block (s := S1x2) S1x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x7.size a ≤ S2097152x7.size a
  hwx0_13 : ∀ i : grid0.Coords, EltTy.bits .f32 = 32 ∨ (Rect.block (s := S2097152x7) S1024x7.size (cc0_transform_13 i) (hinb0_13 i)).WholeWords (EltTy.packing .f32)

variable [Facts₀]

def dot_S1024x2_S2x6_S1024x6_1_0_0_1_n_n : DotDims S1024x2 S2x6 S1024x6 where
  lhsContracting := [1]
  rhsContracting := [0]
  lhsNonContracting := [0]
  rhsNonContracting := [1]
  lhsBatch := []
  rhsBatch := []
  wf := dot_S1024x2_S2x6_S1024x6_1_0_0_1_n_n_wf
def dot_S1024x6_S6x2_S1024x2_1_0_0_1_n_n : DotDims S1024x6 S6x2 S1024x2 where
  lhsContracting := [1]
  rhsContracting := [0]
  lhsNonContracting := [0]
  rhsNonContracting := [1]
  lhsBatch := []
  rhsBatch := []
  wf := dot_S1024x6_S6x2_S1024x2_1_0_0_1_n_n_wf
def dot_S1024x2_S2x1_S1024x1_1_0_0_1_n_n : DotDims S1024x2 S2x1 S1024x1 where
  lhsContracting := [1]
  rhsContracting := [0]
  lhsNonContracting := [0]
  rhsNonContracting := [1]
  lhsBatch := []
  rhsBatch := []
  wf := dot_S1024x2_S2x1_S1024x1_1_0_0_1_n_n_wf

abbrev win0_0 : Pipeline.Window sig grid0 :=
  Pipeline.Window.ofSpec (Memref.whole main_arg0) S1024x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1024x7.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2097152x18 : Shape := ⟨2, ![2097152, 18]⟩
abbrev S6x2 : Shape := ⟨2, ![6, 2]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S2097152x4 : Shape := ⟨2, ![2097152, 4]⟩
abbrev S2097152x7 : Shape := ⟨2, ![2097152, 7]⟩
abbrev S2097152x1x7 : Shape := ⟨3, ![2097152, 1, 7]⟩
abbrev S2097152x2x7 : Shape := ⟨3, ![2097152, 2, 7]⟩
abbrev S_ : Shape := ⟨0, ![]⟩
abbrev S2097152x2 : Shape := ⟨2, ![2097152, 2]⟩
abbrev S2097152x2x1 : Shape := ⟨3, ![2097152, 2, 1]⟩
abbrev S2097152x6 : Shape := ⟨2, ![2097152, 6]⟩
abbrev S1x6 : Shape := ⟨2, ![1, 6]⟩
abbrev S2x1 : Shape := ⟨2, ![2, 1]⟩
abbrev S2097152x1 : Shape := ⟨2, ![2097152, 1]⟩
abbrev S1x1 : Shape := ⟨2, ![1, 1]⟩

abbrev nBuf : Space → Nat
  | .hbm => 679
  | .vmem => 0
  | .smem => 0
  | _ => 0

abbrev hbmTy0_0 (i : Nat) : BufTy := match i % 128 with
  | 0 => ⟨S2097152x18, .f32⟩
  | 1 => ⟨S6x2, .f32⟩
  | 2 => ⟨S6x2, .f32⟩
  | 3 => ⟨S6, .f32⟩
  | 4 => ⟨S6, .f32⟩
  | 5 => ⟨S2x6, .f32⟩
  | 6 => ⟨S2, .f32⟩
  | 7 => ⟨S6x2, .f32⟩
  | 8 => ⟨S6x2, .f32⟩
  | 9 => ⟨S6, .f32⟩
  | 10 => ⟨S6, .f32⟩
  | 11 => ⟨S1x2, .f32⟩
  | 12 => ⟨S1, .f32⟩
  | 13 => ⟨S2097152x4, .f32⟩
  | 14 => ⟨S2097152x7, .f32⟩
  | 15 => ⟨S2097152x7, .f32⟩
  | 16 => ⟨S2097152x1x7, .f32⟩
  | 17 => ⟨S2097152x1x7, .f32⟩
  | 18 => ⟨S2097152x2x7, .f32⟩
  | 19 => ⟨S_, .f32⟩
  | 20 => ⟨S2097152x2, .f32⟩
  | 21 => ⟨S2097152x2x1, .f32⟩
  | 22 => ⟨S2097152x2, .f32⟩
  | 23 => ⟨S2x6, .f32⟩
  | 24 => ⟨S2097152x6, .f32⟩
  | 25 => ⟨S1x6, .f32⟩
  | 26 => ⟨S2097152x6, .f32⟩
  | 27 => ⟨S2097152x6, .f32⟩
  | 28 => ⟨S2x6, .f32⟩
  | 29 => ⟨S2097152x6, .f32⟩
  | 30 => ⟨S1x6, .f32⟩
  | 31 => ⟨S2097152x6, .f32⟩
  | 32 => ⟨S2097152x6, .f32⟩
  | 33 => ⟨S2097152x2, .f32⟩
  | 34 => ⟨S2097152x2, .f32⟩
  | 35 => ⟨S2097152x2, .f32⟩
  | 36 => ⟨S2097152x2, .f32⟩
  | 37 => ⟨S2097152x2, .f32⟩
  | 38 => ⟨S2097152x2, .f32⟩
  | 39 => ⟨S2097152x2, .f32⟩
  | 40 => ⟨S2097152x2, .f32⟩
  | 41 => ⟨S2097152x2, .f32⟩
  | 42 => ⟨S_, .f32⟩
  | 43 => ⟨S2097152x2, .f32⟩
  | 44 => ⟨S2097152x2, .f32⟩
  | 45 => ⟨S_, .f32⟩
  | 46 => ⟨S2097152x2, .f32⟩
  | 47 => ⟨S2097152x2, .f32⟩
  | 48 => ⟨S2097152x2, .f32⟩
  | 49 => ⟨S2097152x2, .f32⟩
  | 50 => ⟨S2097152x2, .f32⟩
  | 51 => ⟨S_, .f32⟩
  | 52 => ⟨S2097152x2, .f32⟩
  | 53 => ⟨S2097152x2, .f32⟩
  | 54 => ⟨S_, .f32⟩
  | 55 => ⟨S2097152x2, .f32⟩
  | 56 => ⟨S2097152x2, .f32⟩
  | 57 => ⟨S2097152x2, .f32⟩
  | 58 => ⟨S2097152x2, .f32⟩
  | 59 => ⟨S2097152x2, .f32⟩
  | 60 => ⟨S_, .f32⟩
  | 61 => ⟨S2097152x2, .f32⟩
  | 62 => ⟨S2097152x2, .f32⟩
  | 63 => ⟨S2097152x2, .f32⟩
  | 64 => ⟨S2097152x2, .f32⟩
  | 65 => ⟨S2097152x2, .f32⟩
  | 66 => ⟨S2097152x2x1, .f32⟩
  | 67 => ⟨S2097152x2, .f32⟩
  | 68 => ⟨S2x6, .f32⟩
  | 69 => ⟨S2097152x6, .f32⟩
  | 70 => ⟨S1x6, .f32⟩
  | 71 => ⟨S2097152x6, .f32⟩
  | 72 => ⟨S2097152x6, .f32⟩
  | 73 => ⟨S2x6, .f32⟩
  | 74 => ⟨S2097152x6, .f32⟩
  | 75 => ⟨S1x6, .f32⟩
  | 76 => ⟨S2097152x6, .f32⟩
  | 77 => ⟨S2097152x6, .f32⟩
  | 78 => ⟨S2097152x2, .f32⟩
  | 79 => ⟨S2097152x2, .f32⟩
  | 80 => ⟨S2097152x2, .f32⟩
  | 81 => ⟨S2097152x2, .f32⟩
  | 82 => ⟨S2097152x2, .f32⟩
  | 83 => ⟨S2097152x2, .f32⟩
  | 84 => ⟨S2097152x2, .f32⟩
  | 85 => ⟨S2097152x2, .f32⟩
  | 86 => ⟨S2097152x2, .f32⟩
  | 87 => ⟨S_, .f32⟩
  | 88 => ⟨S2097152x2, .f32⟩
  | 89 => ⟨S2097152x2, .f32⟩
  | 90 => ⟨S_, .f32⟩
  | 91 => ⟨S2097152x2, .f32⟩
  | 92 => ⟨S2097152x2, .f32⟩
  | 93 => ⟨S2097152x2, .f32⟩
  | 94 => ⟨S2097152x2, .f32⟩
  | 95 => ⟨S2097152x2, .f32⟩
  | 96 => ⟨S_, .f32⟩
  | 97 => ⟨S2097152x2, .f32⟩
  | 98 => ⟨S2097152x2, .f32⟩
  | 99 => ⟨S_, .f32⟩
  | 100 => ⟨S2097152x2, .f32⟩
  | 101 => ⟨S2097152x2, .f32⟩
  | 102 => ⟨S2097152x2, .f32⟩
  | 103 => ⟨S2097152x2, .f32⟩
  | 104 => ⟨S2097152x2, .f32⟩
  | 105 => ⟨S_, .f32⟩
  | 106 => ⟨S2097152x2, .f32⟩
  | 107 => ⟨S2097152x2, .f32⟩
  | 108 => ⟨S2097152x2, .f32⟩
  | 109 => ⟨S2097152x2, .f32⟩
  | 110 => ⟨S2097152x2, .f32⟩
  | 111 => ⟨S2097152x2x1, .f32⟩
  | 112 => ⟨S2097152x2, .f32⟩
  | 113 => ⟨S2x6, .f32⟩
  | 114 => ⟨S2097152x6, .f32⟩
  | 115 => ⟨S1x6, .f32⟩
  | 116 => ⟨S2097152x6, .f32⟩
  | 117 => ⟨S2097152x6, .f32⟩
  | 118 => ⟨S2x6, .f32⟩
  | 119 => ⟨S2097152x6, .f32⟩
  | 120 => ⟨S1x6, .f32⟩
  | 121 => ⟨S2097152x6, .f32⟩
  | 122 => ⟨S2097152x6, .f32⟩
  | 123 => ⟨S2097152x2, .f32⟩
  | 124 => ⟨S2097152x2, .f32⟩
  | 125 => ⟨S2097152x2, .f32⟩
  | 126 => ⟨S2097152x2, .f32⟩
  | 127 => ⟨S2097152x2, .f32⟩
  | _ => ⟨S2097152x18, .f32⟩

abbrev hbmTy0_1 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S_, .f32⟩
  | 5 => ⟨S2097152x2, .f32⟩
  | 6 => ⟨S2097152x2, .f32⟩
  | 7 => ⟨S_, .f32⟩
  | 8 => ⟨S2097152x2, .f32⟩
  | 9 => ⟨S2097152x2, .f32⟩
  | 10 => ⟨S2097152x2, .f32⟩
  | 11 => ⟨S2097152x2, .f32⟩
  | 12 => ⟨S2097152x2, .f32⟩
  | 13 => ⟨S_, .f32⟩
  | 14 => ⟨S2097152x2, .f32⟩
  | 15 => ⟨S2097152x2, .f32⟩
  | 16 => ⟨S_, .f32⟩
  | 17 => ⟨S2097152x2, .f32⟩
  | 18 => ⟨S2097152x2, .f32⟩
  | 19 => ⟨S2097152x2, .f32⟩
  | 20 => ⟨S2097152x2, .f32⟩
  | 21 => ⟨S2097152x2, .f32⟩
  | 22 => ⟨S_, .f32⟩
  | 23 => ⟨S2097152x2, .f32⟩
  | 24 => ⟨S2097152x2, .f32⟩
  | 25 => ⟨S2097152x2, .f32⟩
  | 26 => ⟨S2097152x2, .f32⟩
  | 27 => ⟨S2097152x2, .f32⟩
  | 28 => ⟨S2097152x2x1, .f32⟩
  | 29 => ⟨S2097152x2, .f32⟩
  | 30 => ⟨S2x6, .f32⟩
  | 31 => ⟨S2097152x6, .f32⟩
  | 32 => ⟨S1x6, .f32⟩
  | 33 => ⟨S2097152x6, .f32⟩
  | 34 => ⟨S2097152x6, .f32⟩
  | 35 => ⟨S2x6, .f32⟩
  | 36 => ⟨S2097152x6, .f32⟩
  | 37 => ⟨S1x6, .f32⟩
  | 38 => ⟨S2097152x6, .f32⟩
  | 39 => ⟨S2097152x6, .f32⟩
  | 40 => ⟨S2097152x2, .f32⟩
  | 41 => ⟨S2097152x2, .f32⟩
  | 42 => ⟨S2097152x2, .f32⟩
  | 43 => ⟨S2097152x2, .f32⟩
  | 44 => ⟨S2097152x2, .f32⟩
  | 45 => ⟨S2097152x2, .f32⟩
  | 46 => ⟨S2097152x2, .f32⟩
  | 47 => ⟨S2097152x2, .f32⟩
  | 48 => ⟨S2097152x2, .f32⟩
  | 49 => ⟨S_, .f32⟩
  | 50 => ⟨S2097152x2, .f32⟩
  | 51 => ⟨S2097152x2, .f32⟩
  | 52 => ⟨S_, .f32⟩
  | 53 => ⟨S2097152x2, .f32⟩
  | 54 => ⟨S2097152x2, .f32⟩
  | 55 => ⟨S2097152x2, .f32⟩
  | 56 => ⟨S2097152x2, .f32⟩
  | 57 => ⟨S2097152x2, .f32⟩
  | 58 => ⟨S_, .f32⟩
  | 59 => ⟨S2097152x2, .f32⟩
  | 60 => ⟨S2097152x2, .f32⟩
  | 61 => ⟨S_, .f32⟩
  | 62 => ⟨S2097152x2, .f32⟩
  | 63 => ⟨S2097152x2, .f32⟩
  | 64 => ⟨S2097152x2, .f32⟩
  | 65 => ⟨S2097152x2, .f32⟩
  | 66 => ⟨S2097152x2, .f32⟩
  | 67 => ⟨S_, .f32⟩
  | 68 => ⟨S2097152x2, .f32⟩
  | 69 => ⟨S2097152x2, .f32⟩
  | 70 => ⟨S2097152x2, .f32⟩
  | 71 => ⟨S2097152x2, .f32⟩
  | 72 => ⟨S2097152x2, .f32⟩
  | 73 => ⟨S2097152x2x1, .f32⟩
  | 74 => ⟨S2097152x2, .f32⟩
  | 75 => ⟨S2x6, .f32⟩
  | 76 => ⟨S2097152x6, .f32⟩
  | 77 => ⟨S1x6, .f32⟩
  | 78 => ⟨S2097152x6, .f32⟩
  | 79 => ⟨S2097152x6, .f32⟩
  | 80 => ⟨S2x6, .f32⟩
  | 81 => ⟨S2097152x6, .f32⟩
  | 82 => ⟨S1x6, .f32⟩
  | 83 => ⟨S2097152x6, .f32⟩
  | 84 => ⟨S2097152x6, .f32⟩
  | 85 => ⟨S2097152x2, .f32⟩
  | 86 => ⟨S2097152x2, .f32⟩
  | 87 => ⟨S2097152x2, .f32⟩
  | 88 => ⟨S2097152x2, .f32⟩
  | 89 => ⟨S2097152x2, .f32⟩
  | 90 => ⟨S2097152x2, .f32⟩
  | 91 => ⟨S2097152x2, .f32⟩
  | 92 => ⟨S2097152x2, .f32⟩
  | 93 => ⟨S2097152x2, .f32⟩
  | 94 => ⟨S_, .f32⟩
  | 95 => ⟨S2097152x2, .f32⟩
  | 96 => ⟨S2097152x2, .f32⟩
  | 97 => ⟨S_, .f32⟩
  | 98 => ⟨S2097152x2, .f32⟩
  | 99 => ⟨S2097152x2, .f32⟩
  | 100 => ⟨S2097152x2, .f32⟩
  | 101 => ⟨S2097152x2, .f32⟩
  | 102 => ⟨S2097152x2, .f32⟩
  | 103 => ⟨S_, .f32⟩
  | 104 => ⟨S2097152x2, .f32⟩
  | 105 => ⟨S2097152x2, .f32⟩
  | 106 => ⟨S_, .f32⟩
  | 107 => ⟨S2097152x2, .f32⟩
  | 108 => ⟨S2097152x2, .f32⟩
  | 109 => ⟨S2097152x2, .f32⟩
  | 110 => ⟨S2097152x2, .f32⟩
  | 111 => ⟨S2097152x2, .f32⟩
  | 112 => ⟨S_, .f32⟩
  | 113 => ⟨S2097152x2, .f32⟩
  | 114 => ⟨S2097152x2, .f32⟩
  | 115 => ⟨S2097152x2, .f32⟩
  | 116 => ⟨S2097152x2, .f32⟩
  | 117 => ⟨S2097152x2, .f32⟩
  | 118 => ⟨S2097152x2x1, .f32⟩
  | 119 => ⟨S2097152x2, .f32⟩
  | 120 => ⟨S2x6, .f32⟩
  | 121 => ⟨S2097152x6, .f32⟩
  | 122 => ⟨S1x6, .f32⟩
  | 123 => ⟨S2097152x6, .f32⟩
  | 124 => ⟨S2097152x6, .f32⟩
  | 125 => ⟨S2x6, .f32⟩
  | 126 => ⟨S2097152x6, .f32⟩
  | 127 => ⟨S1x6, .f32⟩
  | _ => ⟨S2097152x18, .f32⟩

abbrev hbmTy0_2 (i : Nat) : BufTy := match i % 128 with
  | 0 => ⟨S2097152x6, .f32⟩
  | 1 => ⟨S2097152x6, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S2097152x2, .f32⟩
  | 10 => ⟨S2097152x2, .f32⟩
  | 11 => ⟨S_, .f32⟩
  | 12 => ⟨S2097152x2, .f32⟩
  | 13 => ⟨S2097152x2, .f32⟩
  | 14 => ⟨S_, .f32⟩
  | 15 => ⟨S2097152x2, .f32⟩
  | 16 => ⟨S2097152x2, .f32⟩
  | 17 => ⟨S2097152x2, .f32⟩
  | 18 => ⟨S2097152x2, .f32⟩
  | 19 => ⟨S2097152x2, .f32⟩
  | 20 => ⟨S_, .f32⟩
  | 21 => ⟨S2097152x2, .f32⟩
  | 22 => ⟨S2097152x2, .f32⟩
  | 23 => ⟨S_, .f32⟩
  | 24 => ⟨S2097152x2, .f32⟩
  | 25 => ⟨S2097152x2, .f32⟩
  | 26 => ⟨S2097152x2, .f32⟩
  | 27 => ⟨S2097152x2, .f32⟩
  | 28 => ⟨S2097152x2, .f32⟩
  | 29 => ⟨S_, .f32⟩
  | 30 => ⟨S2097152x2, .f32⟩
  | 31 => ⟨S2097152x2, .f32⟩
  | 32 => ⟨S2097152x2, .f32⟩
  | 33 => ⟨S2097152x2, .f32⟩
  | 34 => ⟨S2097152x2, .f32⟩
  | 35 => ⟨S2097152x2x1, .f32⟩
  | 36 => ⟨S2097152x2, .f32⟩
  | 37 => ⟨S2x6, .f32⟩
  | 38 => ⟨S2097152x6, .f32⟩
  | 39 => ⟨S1x6, .f32⟩
  | 40 => ⟨S2097152x6, .f32⟩
  | 41 => ⟨S2097152x6, .f32⟩
  | 42 => ⟨S2x6, .f32⟩
  | 43 => ⟨S2097152x6, .f32⟩
  | 44 => ⟨S1x6, .f32⟩
  | 45 => ⟨S2097152x6, .f32⟩
  | 46 => ⟨S2097152x6, .f32⟩
  | 47 => ⟨S2097152x2, .f32⟩
  | 48 => ⟨S2097152x2, .f32⟩
  | 49 => ⟨S2097152x2, .f32⟩
  | 50 => ⟨S2097152x2, .f32⟩
  | 51 => ⟨S2097152x2, .f32⟩
  | 52 => ⟨S2097152x2, .f32⟩
  | 53 => ⟨S2097152x2, .f32⟩
  | 54 => ⟨S2097152x2, .f32⟩
  | 55 => ⟨S2097152x2, .f32⟩
  | 56 => ⟨S_, .f32⟩
  | 57 => ⟨S2097152x2, .f32⟩
  | 58 => ⟨S2097152x2, .f32⟩
  | 59 => ⟨S_, .f32⟩
  | 60 => ⟨S2097152x2, .f32⟩
  | 61 => ⟨S2097152x2, .f32⟩
  | 62 => ⟨S2097152x2, .f32⟩
  | 63 => ⟨S2097152x2, .f32⟩
  | 64 => ⟨S2097152x2, .f32⟩
  | 65 => ⟨S_, .f32⟩
  | 66 => ⟨S2097152x2, .f32⟩
  | 67 => ⟨S2097152x2, .f32⟩
  | 68 => ⟨S_, .f32⟩
  | 69 => ⟨S2097152x2, .f32⟩
  | 70 => ⟨S2097152x2, .f32⟩
  | 71 => ⟨S2097152x2, .f32⟩
  | 72 => ⟨S2097152x2, .f32⟩
  | 73 => ⟨S2097152x2, .f32⟩
  | 74 => ⟨S_, .f32⟩
  | 75 => ⟨S2097152x2, .f32⟩
  | 76 => ⟨S2097152x2, .f32⟩
  | 77 => ⟨S2097152x2, .f32⟩
  | 78 => ⟨S2097152x2, .f32⟩
  | 79 => ⟨S2097152x2, .f32⟩
  | 80 => ⟨S2097152x6, .f32⟩
  | 81 => ⟨S6x2, .f32⟩
  | 82 => ⟨S2097152x2, .f32⟩
  | 83 => ⟨S1x2, .f32⟩
  | 84 => ⟨S2097152x2, .f32⟩
  | 85 => ⟨S2097152x2, .f32⟩
  | 86 => ⟨S2x6, .f32⟩
  | 87 => ⟨S2097152x6, .f32⟩
  | 88 => ⟨S1x6, .f32⟩
  | 89 => ⟨S2097152x6, .f32⟩
  | 90 => ⟨S2097152x6, .f32⟩
  | 91 => ⟨S2x6, .f32⟩
  | 92 => ⟨S2097152x6, .f32⟩
  | 93 => ⟨S1x6, .f32⟩
  | 94 => ⟨S2097152x6, .f32⟩
  | 95 => ⟨S2097152x6, .f32⟩
  | 96 => ⟨S2097152x2, .f32⟩
  | 97 => ⟨S2097152x2, .f32⟩
  | 98 => ⟨S2097152x2, .f32⟩
  | 99 => ⟨S2097152x2, .f32⟩
  | 100 => ⟨S2097152x2, .f32⟩
  | 101 => ⟨S2097152x2, .f32⟩
  | 102 => ⟨S2097152x2, .f32⟩
  | 103 => ⟨S2097152x2, .f32⟩
  | 104 => ⟨S2097152x2, .f32⟩
  | 105 => ⟨S_, .f32⟩
  | 106 => ⟨S2097152x2, .f32⟩
  | 107 => ⟨S2097152x2, .f32⟩
  | 108 => ⟨S_, .f32⟩
  | 109 => ⟨S2097152x2, .f32⟩
  | 110 => ⟨S2097152x2, .f32⟩
  | 111 => ⟨S2097152x2, .f32⟩
  | 112 => ⟨S2097152x2, .f32⟩
  | 113 => ⟨S2097152x2, .f32⟩
  | 114 => ⟨S_, .f32⟩
  | 115 => ⟨S2097152x2, .f32⟩
  | 116 => ⟨S2097152x2, .f32⟩
  | 117 => ⟨S_, .f32⟩
  | 118 => ⟨S2097152x2, .f32⟩
  | 119 => ⟨S2097152x2, .f32⟩
  | 120 => ⟨S2097152x2, .f32⟩
  | 121 => ⟨S2097152x2, .f32⟩
  | 122 => ⟨S2097152x2, .f32⟩
  | 123 => ⟨S_, .f32⟩
  | 124 => ⟨S2097152x2, .f32⟩
  | 125 => ⟨S2097152x2, .f32⟩
  | 126 => ⟨S2097152x2, .f32⟩
  | 127 => ⟨S2097152x2, .f32⟩
  | _ => ⟨S2097152x18, .f32⟩

abbrev hbmTy0_3 (i : Nat) : BufTy := match i % 128 with
  | 0 => ⟨S2097152x2, .f32⟩
  | 1 => ⟨S2x1, .f32⟩
  | 2 => ⟨S2097152x1, .f32⟩
  | 3 => ⟨S1x1, .f32⟩
  | 4 => ⟨S2097152x1, .f32⟩
  | 5 => ⟨S2097152x1, .f32⟩
  | 6 => ⟨S2x6, .f32⟩
  | 7 => ⟨S2097152x6, .f32⟩
  | 8 => ⟨S1x6, .f32⟩
  | 9 => ⟨S2097152x6, .f32⟩
  | 10 => ⟨S2097152x6, .f32⟩
  | 11 => ⟨S2x6, .f32⟩
  | 12 => ⟨S2097152x6, .f32⟩
  | 13 => ⟨S1x6, .f32⟩
  | 14 => ⟨S2097152x6, .f32⟩
  | 15 => ⟨S2097152x6, .f32⟩
  | 16 => ⟨S2097152x2, .f32⟩
  | 17 => ⟨S2097152x2, .f32⟩
  | 18 => ⟨S2097152x2, .f32⟩
  | 19 => ⟨S2097152x2, .f32⟩
  | 20 => ⟨S2097152x2, .f32⟩
  | 21 => ⟨S2097152x2, .f32⟩
  | 22 => ⟨S2097152x2, .f32⟩
  | 23 => ⟨S2097152x2, .f32⟩
  | 24 => ⟨S2097152x2, .f32⟩
  | 25 => ⟨S_, .f32⟩
  | 26 => ⟨S2097152x2, .f32⟩
  | 27 => ⟨S2097152x2, .f32⟩
  | 28 => ⟨S_, .f32⟩
  | 29 => ⟨S2097152x2, .f32⟩
  | 30 => ⟨S2097152x2, .f32⟩
  | 31 => ⟨S2097152x2, .f32⟩
  | 32 => ⟨S2097152x2, .f32⟩
  | 33 => ⟨S2097152x2, .f32⟩
  | 34 => ⟨S_, .f32⟩
  | 35 => ⟨S2097152x2, .f32⟩
  | 36 => ⟨S2097152x2, .f32⟩
  | 37 => ⟨S_, .f32⟩
  | 38 => ⟨S2097152x2, .f32⟩
  | 39 => ⟨S2097152x2, .f32⟩
  | 40 => ⟨S2097152x2, .f32⟩
  | 41 => ⟨S2097152x2, .f32⟩
  | 42 => ⟨S2097152x2, .f32⟩
  | 43 => ⟨S_, .f32⟩
  | 44 => ⟨S2097152x2, .f32⟩
  | 45 => ⟨S2097152x2, .f32⟩
  | 46 => ⟨S2097152x2, .f32⟩
  | 47 => ⟨S2097152x2, .f32⟩
  | 48 => ⟨S2097152x2, .f32⟩
  | 49 => ⟨S2x1, .f32⟩
  | 50 => ⟨S2097152x1, .f32⟩
  | 51 => ⟨S1x1, .f32⟩
  | 52 => ⟨S2097152x1, .f32⟩
  | 53 => ⟨S2097152x1, .f32⟩
  | 54 => ⟨S2x6, .f32⟩
  | 55 => ⟨S2097152x6, .f32⟩
  | 56 => ⟨S1x6, .f32⟩
  | 57 => ⟨S2097152x6, .f32⟩
  | 58 => ⟨S2097152x6, .f32⟩
  | 59 => ⟨S2x6, .f32⟩
  | 60 => ⟨S2097152x6, .f32⟩
  | 61 => ⟨S1x6, .f32⟩
  | 62 => ⟨S2097152x6, .f32⟩
  | 63 => ⟨S2097152x6, .f32⟩
  | 64 => ⟨S2097152x2, .f32⟩
  | 65 => ⟨S2097152x2, .f32⟩
  | 66 => ⟨S2097152x2, .f32⟩
  | 67 => ⟨S2097152x2, .f32⟩
  | 68 => ⟨S2097152x2, .f32⟩
  | 69 => ⟨S2097152x2, .f32⟩
  | 70 => ⟨S2097152x2, .f32⟩
  | 71 => ⟨S2097152x2, .f32⟩
  | 72 => ⟨S2097152x2, .f32⟩
  | 73 => ⟨S_, .f32⟩
  | 74 => ⟨S2097152x2, .f32⟩
  | 75 => ⟨S2097152x2, .f32⟩
  | 76 => ⟨S_, .f32⟩
  | 77 => ⟨S2097152x2, .f32⟩
  | 78 => ⟨S2097152x2, .f32⟩
  | 79 => ⟨S2097152x2, .f32⟩
  | 80 => ⟨S2097152x2, .f32⟩
  | 81 => ⟨S2097152x2, .f32⟩
  | 82 => ⟨S_, .f32⟩
  | 83 => ⟨S2097152x2, .f32⟩
  | 84 => ⟨S2097152x2, .f32⟩
  | 85 => ⟨S_, .f32⟩
  | 86 => ⟨S2097152x2, .f32⟩
  | 87 => ⟨S2097152x2, .f32⟩
  | 88 => ⟨S2097152x2, .f32⟩
  | 89 => ⟨S2097152x2, .f32⟩
  | 90 => ⟨S2097152x2, .f32⟩
  | 91 => ⟨S_, .f32⟩
  | 92 => ⟨S2097152x2, .f32⟩
  | 93 => ⟨S2097152x2, .f32⟩
  | 94 => ⟨S2097152x2, .f32⟩
  | 95 => ⟨S2097152x2, .f32⟩
  | 96 => ⟨S2097152x2, .f32⟩
  | 97 => ⟨S2x1, .f32⟩
  | 98 => ⟨S2097152x1, .f32⟩
  | 99 => ⟨S1x1, .f32⟩
  | 100 => ⟨S2097152x1, .f32⟩
  | 101 => ⟨S2097152x1, .f32⟩
  | 102 => ⟨S2x6, .f32⟩
  | 103 => ⟨S2097152x6, .f32⟩
  | 104 => ⟨S1x6, .f32⟩
  | 105 => ⟨S2097152x6, .f32⟩
  | 106 => ⟨S2097152x6, .f32⟩
  | 107 => ⟨S2x6, .f32⟩
  | 108 => ⟨S2097152x6, .f32⟩
  | 109 => ⟨S1x6, .f32⟩
  | 110 => ⟨S2097152x6, .f32⟩
  | 111 => ⟨S2097152x6, .f32⟩
  | 112 => ⟨S2097152x2, .f32⟩
  | 113 => ⟨S2097152x2, .f32⟩
  | 114 => ⟨S2097152x2, .f32⟩
  | 115 => ⟨S2097152x2, .f32⟩
  | 116 => ⟨S2097152x2, .f32⟩
  | 117 => ⟨S2097152x2, .f32⟩
  | 118 => ⟨S2097152x2, .f32⟩
  | 119 => ⟨S2097152x2, .f32⟩
  | 120 => ⟨S2097152x2, .f32⟩
  | 121 => ⟨S_, .f32⟩
  | 122 => ⟨S2097152x2, .f32⟩
  | 123 => ⟨S2097152x2, .f32⟩
  | 124 => ⟨S_, .f32⟩
  | 125 => ⟨S2097152x2, .f32⟩
  | 126 => ⟨S2097152x2, .f32⟩
  | 127 => ⟨S2097152x2, .f32⟩
  | _ => ⟨S2097152x18, .f32⟩

abbrev hbmTy0_4 (i : Nat) : BufTy := match i % 128 with
  | 0 => ⟨S2097152x2, .f32⟩
  | 1 => ⟨S2097152x2, .f32⟩
  | 2 => ⟨S_, .f32⟩
  | 3 => ⟨S2097152x2, .f32⟩
  | 4 => ⟨S2097152x2, .f32⟩
  | 5 => ⟨S_, .f32⟩
  | 6 => ⟨S2097152x2, .f32⟩
  | 7 => ⟨S2097152x2, .f32⟩
  | 8 => ⟨S2097152x2, .f32⟩
  | 9 => ⟨S2097152x2, .f32⟩
  | 10 => ⟨S2097152x2, .f32⟩
  | 11 => ⟨S_, .f32⟩
  | 12 => ⟨S2097152x2, .f32⟩
  | 13 => ⟨S2097152x2, .f32⟩
  | 14 => ⟨S2097152x2, .f32⟩
  | 15 => ⟨S2097152x2, .f32⟩
  | 16 => ⟨S2097152x2, .f32⟩
  | 17 => ⟨S2x1, .f32⟩
  | 18 => ⟨S2097152x1, .f32⟩
  | 19 => ⟨S1x1, .f32⟩
  | 20 => ⟨S2097152x1, .f32⟩
  | 21 => ⟨S2097152x1, .f32⟩
  | 22 => ⟨S2x6, .f32⟩
  | 23 => ⟨S2097152x6, .f32⟩
  | 24 => ⟨S1x6, .f32⟩
  | 25 => ⟨S2097152x6, .f32⟩
  | 26 => ⟨S2097152x6, .f32⟩
  | 27 => ⟨S2x6, .f32⟩
  | 28 => ⟨S2097152x6, .f32⟩
  | 29 => ⟨S1x6, .f32⟩
  | 30 => ⟨S2097152x6, .f32⟩
  | 31 => ⟨S2097152x6, .f32⟩
  | 32 => ⟨S2097152x2, .f32⟩
  | 33 => ⟨S2097152x2, .f32⟩
  | 34 => ⟨S2097152x2, .f32⟩
  | 35 => ⟨S2097152x2, .f32⟩
  | 36 => ⟨S2097152x2, .f32⟩
  | 37 => ⟨S2097152x2, .f32⟩
  | 38 => ⟨S2097152x2, .f32⟩
  | 39 => ⟨S2097152x2, .f32⟩
  | 40 => ⟨S2097152x2, .f32⟩
  | 41 => ⟨S_, .f32⟩
  | 42 => ⟨S2097152x2, .f32⟩
  | 43 => ⟨S2097152x2, .f32⟩
  | 44 => ⟨S_, .f32⟩
  | 45 => ⟨S2097152x2, .f32⟩
  | 46 => ⟨S2097152x2, .f32⟩
  | 47 => ⟨S2097152x2, .f32⟩
  | 48 => ⟨S2097152x2, .f32⟩
  | 49 => ⟨S2097152x2, .f32⟩
  | 50 => ⟨S_, .f32⟩
  | 51 => ⟨S2097152x2, .f32⟩
  | 52 => ⟨S2097152x2, .f32⟩
  | 53 => ⟨S_, .f32⟩
  | 54 => ⟨S2097152x2, .f32⟩
  | 55 => ⟨S2097152x2, .f32⟩
  | 56 => ⟨S2097152x2, .f32⟩
  | 57 => ⟨S2097152x2, .f32⟩
  | 58 => ⟨S2097152x2, .f32⟩
  | 59 => ⟨S_, .f32⟩
  | 60 => ⟨S2097152x2, .f32⟩
  | 61 => ⟨S2097152x2, .f32⟩
  | 62 => ⟨S2097152x2, .f32⟩
  | 63 => ⟨S2097152x2, .f32⟩
  | 64 => ⟨S2097152x2, .f32⟩
  | 65 => ⟨S2x1, .f32⟩
  | 66 => ⟨S2097152x1, .f32⟩
  | 67 => ⟨S1x1, .f32⟩
  | 68 => ⟨S2097152x1, .f32⟩
  | 69 => ⟨S2097152x1, .f32⟩
  | 70 => ⟨S2x6, .f32⟩
  | 71 => ⟨S2097152x6, .f32⟩
  | 72 => ⟨S1x6, .f32⟩
  | 73 => ⟨S2097152x6, .f32⟩
  | 74 => ⟨S2097152x6, .f32⟩
  | 75 => ⟨S2x6, .f32⟩
  | 76 => ⟨S2097152x6, .f32⟩
  | 77 => ⟨S1x6, .f32⟩
  | 78 => ⟨S2097152x6, .f32⟩
  | 79 => ⟨S2097152x6, .f32⟩
  | 80 => ⟨S2097152x2, .f32⟩
  | 81 => ⟨S2097152x2, .f32⟩
  | 82 => ⟨S2097152x2, .f32⟩
  | 83 => ⟨S2097152x2, .f32⟩
  | 84 => ⟨S2097152x2, .f32⟩
  | 85 => ⟨S2097152x2, .f32⟩
  | 86 => ⟨S2097152x2, .f32⟩
  | 87 => ⟨S2097152x2, .f32⟩
  | 88 => ⟨S2097152x2, .f32⟩
  | 89 => ⟨S_, .f32⟩
  | 90 => ⟨S2097152x2, .f32⟩
  | 91 => ⟨S2097152x2, .f32⟩
  | 92 => ⟨S_, .f32⟩
  | 93 => ⟨S2097152x2, .f32⟩
  | 94 => ⟨S2097152x2, .f32⟩
  | 95 => ⟨S2097152x2, .f32⟩
  | 96 => ⟨S2097152x2, .f32⟩
  | 97 => ⟨S2097152x2, .f32⟩
  | 98 => ⟨S_, .f32⟩
  | 99 => ⟨S2097152x2, .f32⟩
  | 100 => ⟨S2097152x2, .f32⟩
  | 101 => ⟨S_, .f32⟩
  | 102 => ⟨S2097152x2, .f32⟩
  | 103 => ⟨S2097152x2, .f32⟩
  | 104 => ⟨S2097152x2, .f32⟩
  | 105 => ⟨S2097152x2, .f32⟩
  | 106 => ⟨S2097152x2, .f32⟩
  | 107 => ⟨S_, .f32⟩
  | 108 => ⟨S2097152x2, .f32⟩
  | 109 => ⟨S2097152x2, .f32⟩
  | 110 => ⟨S2097152x2, .f32⟩
  | 111 => ⟨S2097152x2, .f32⟩
  | 112 => ⟨S2097152x2, .f32⟩
  | 113 => ⟨S2x1, .f32⟩
  | 114 => ⟨S2097152x1, .f32⟩
  | 115 => ⟨S1x1, .f32⟩
  | 116 => ⟨S2097152x1, .f32⟩
  | 117 => ⟨S2097152x1, .f32⟩
  | 118 => ⟨S2x6, .f32⟩
  | 119 => ⟨S2097152x6, .f32⟩
  | 120 => ⟨S1x6, .f32⟩
  | 121 => ⟨S2097152x6, .f32⟩
  | 122 => ⟨S2097152x6, .f32⟩
  | 123 => ⟨S2x6, .f32⟩
  | 124 => ⟨S2097152x6, .f32⟩
  | 125 => ⟨S1x6, .f32⟩
  | 126 => ⟨S2097152x6, .f32⟩
  | 127 => ⟨S2097152x6, .f32⟩
  | _ => ⟨S2097152x18, .f32⟩

abbrev hbmTy0_5 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S_, .f32⟩
  | 10 => ⟨S2097152x2, .f32⟩
  | 11 => ⟨S2097152x2, .f32⟩
  | 12 => ⟨S_, .f32⟩
  | 13 => ⟨S2097152x2, .f32⟩
  | 14 => ⟨S2097152x2, .f32⟩
  | 15 => ⟨S2097152x2, .f32⟩
  | 16 => ⟨S2097152x2, .f32⟩
  | 17 => ⟨S2097152x2, .f32⟩
  | 18 => ⟨S_, .f32⟩
  | 19 => ⟨S2097152x2, .f32⟩
  | 20 => ⟨S2097152x2, .f32⟩
  | 21 => ⟨S_, .f32⟩
  | 22 => ⟨S2097152x2, .f32⟩
  | 23 => ⟨S2097152x2, .f32⟩
  | 24 => ⟨S2097152x2, .f32⟩
  | 25 => ⟨S2097152x2, .f32⟩
  | 26 => ⟨S2097152x2, .f32⟩
  | 27 => ⟨S_, .f32⟩
  | 28 => ⟨S2097152x2, .f32⟩
  | 29 => ⟨S2097152x2, .f32⟩
  | 30 => ⟨S2097152x2, .f32⟩
  | 31 => ⟨S2097152x2, .f32⟩
  | 32 => ⟨S2097152x2, .f32⟩
  | 33 => ⟨S2x1, .f32⟩
  | 34 => ⟨S2097152x1, .f32⟩
  | 35 => ⟨S1x1, .f32⟩
  | 36 => ⟨S2097152x1, .f32⟩
  | 37 => ⟨S2097152x1, .f32⟩
  | 38 => ⟨S2097152x7, .f32⟩
  | _ => ⟨S2097152x18, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2097152x18, .f32⟩

abbrev bufTy : (tb : Table) → Fin (tcTables nBuf tb) → BufTy
  | .hbm, ⟨i, _⟩ => hbmTy i
  | _, _ => ⟨S2097152x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_5 : Ref sig .tc := ⟨.hbm, 87, rfl⟩
abbrev main_v68 : Ref sig .tc := ⟨.hbm, 88, rfl⟩
abbrev main_v69 : Ref sig .tc := ⟨.hbm, 89, rfl⟩
abbrev main_cst_6 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_cst_8 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_9 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_10 : Ref sig .tc := ⟨.hbm, 132, rfl⟩
abbrev main_v108 : Ref sig .tc := ⟨.hbm, 133, rfl⟩
abbrev main_v109 : Ref sig .tc := ⟨.hbm, 134, rfl⟩
abbrev main_cst_11 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_12 : Ref sig .tc := ⟨.hbm, 141, rfl⟩
abbrev main_v115 : Ref sig .tc := ⟨.hbm, 142, rfl⟩
abbrev main_v116 : Ref sig .tc := ⟨.hbm, 143, rfl⟩
abbrev main_cst_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_14 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_15 : Ref sig .tc := ⟨.hbm, 177, rfl⟩
abbrev main_v148 : Ref sig .tc := ⟨.hbm, 178, rfl⟩
abbrev main_v149 : Ref sig .tc := ⟨.hbm, 179, rfl⟩
abbrev main_cst_16 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_17 : Ref sig .tc := ⟨.hbm, 186, rfl⟩
abbrev main_v155 : Ref sig .tc := ⟨.hbm, 187, rfl⟩
abbrev main_v156 : Ref sig .tc := ⟨.hbm, 188, rfl⟩
abbrev main_cst_18 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_19 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_cst_20 : Ref sig .tc := ⟨.hbm, 222, rfl⟩
abbrev main_v188 : Ref sig .tc := ⟨.hbm, 223, rfl⟩
abbrev main_v189 : Ref sig .tc := ⟨.hbm, 224, rfl⟩
abbrev main_cst_21 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_22 : Ref sig .tc := ⟨.hbm, 231, rfl⟩
abbrev main_v195 : Ref sig .tc := ⟨.hbm, 232, rfl⟩
abbrev main_v196 : Ref sig .tc := ⟨.hbm, 233, rfl⟩
abbrev main_cst_23 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_24 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_cst_25 : Ref sig .tc := ⟨.hbm, 267, rfl⟩
abbrev main_v228 : Ref sig .tc := ⟨.hbm, 268, rfl⟩
abbrev main_v229 : Ref sig .tc := ⟨.hbm, 269, rfl⟩
abbrev main_cst_26 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_cst_27 : Ref sig .tc := ⟨.hbm, 276, rfl⟩
abbrev main_v235 : Ref sig .tc := ⟨.hbm, 277, rfl⟩
abbrev main_v236 : Ref sig .tc := ⟨.hbm, 278, rfl⟩
abbrev main_cst_28 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_cst_29 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_cst_30 : Ref sig .tc := ⟨.hbm, 312, rfl⟩
abbrev main_v268 : Ref sig .tc := ⟨.hbm, 313, rfl⟩
abbrev main_v269 : Ref sig .tc := ⟨.hbm, 314, rfl⟩
abbrev main_cst_31 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_cst_32 : Ref sig .tc := ⟨.hbm, 321, rfl⟩
abbrev main_v275 : Ref sig .tc := ⟨.hbm, 322, rfl⟩
abbrev main_v276 : Ref sig .tc := ⟨.hbm, 323, rfl⟩
abbrev main_cst_33 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_cst_34 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_cst_35 : Ref sig .tc := ⟨.hbm, 361, rfl⟩
abbrev main_v312 : Ref sig .tc := ⟨.hbm, 362, rfl⟩
abbrev main_v313 : Ref sig .tc := ⟨.hbm, 363, rfl⟩
abbrev main_cst_36 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_cst_37 : Ref sig .tc := ⟨.hbm, 370, rfl⟩
abbrev main_v319 : Ref sig .tc := ⟨.hbm, 371, rfl⟩
abbrev main_v320 : Ref sig .tc := ⟨.hbm, 372, rfl⟩
abbrev main_cst_38 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_cst_39 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_v338 : Ref sig .tc := ⟨.hbm, 392, rfl⟩
abbrev main_v339 : Ref sig .tc := ⟨.hbm, 393, rfl⟩
abbrev main_v340 : Ref sig .tc := ⟨.hbm, 394, rfl⟩
abbrev main_v341 : Ref sig .tc := ⟨.hbm, 395, rfl⟩
abbrev main_v342 : Ref sig .tc := ⟨.hbm, 396, rfl⟩
abbrev main_v343 : Ref sig .tc := ⟨.hbm, 397, rfl⟩
abbrev main_v344 : Ref sig .tc := ⟨.hbm, 398, rfl⟩
abbrev main_v345 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_cst_40 : Ref sig .tc := ⟨.hbm, 409, rfl⟩
abbrev main_v355 : Ref sig .tc := ⟨.hbm, 410, rfl⟩
abbrev main_v356 : Ref sig .tc := ⟨.hbm, 411, rfl⟩
abbrev main_cst_41 : Ref sig .tc := ⟨.hbm, 412, rfl⟩
abbrev main_v357 : Ref sig .tc := ⟨.hbm, 413, rfl⟩
abbrev main_v358 : Ref sig .tc := ⟨.hbm, 414, rfl⟩
abbrev main_v359 : Ref sig .tc := ⟨.hbm, 415, rfl⟩
abbrev main_v360 : Ref sig .tc := ⟨.hbm, 416, rfl⟩
abbrev main_v361 : Ref sig .tc := ⟨.hbm, 417, rfl⟩
abbrev main_cst_42 : Ref sig .tc := ⟨.hbm, 418, rfl⟩
abbrev main_v362 : Ref sig .tc := ⟨.hbm, 419, rfl⟩
abbrev main_v363 : Ref sig .tc := ⟨.hbm, 420, rfl⟩
abbrev main_cst_43 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_v368 : Ref sig .tc := ⟨.hbm, 426, rfl⟩
abbrev main_cst_44 : Ref sig .tc := ⟨.hbm, 427, rfl⟩
abbrev main_v369 : Ref sig .tc := ⟨.hbm, 428, rfl⟩
abbrev main_v370 : Ref sig .tc := ⟨.hbm, 429, rfl⟩
abbrev main_v371 : Ref sig .tc := ⟨.hbm, 430, rfl⟩
abbrev main_v372 : Ref sig .tc := ⟨.hbm, 431, rfl⟩
abbrev main_v373 : Ref sig .tc := ⟨.hbm, 432, rfl⟩
abbrev main_v374 : Ref sig .tc := ⟨.hbm, 433, rfl⟩
abbrev main_v375 : Ref sig .tc := ⟨.hbm, 434, rfl⟩
abbrev main_v376 : Ref sig .tc := ⟨.hbm, 435, rfl⟩
abbrev main_v377 : Ref sig .tc := ⟨.hbm, 436, rfl⟩
abbrev main_v378 : Ref sig .tc := ⟨.hbm, 437, rfl⟩
abbrev main_v379 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_v393 : Ref sig .tc := ⟨.hbm, 452, rfl⟩
abbrev main_v394 : Ref sig .tc := ⟨.hbm, 453, rfl⟩
abbrev main_v395 : Ref sig .tc := ⟨.hbm, 454, rfl⟩
abbrev main_v396 : Ref sig .tc := ⟨.hbm, 455, rfl⟩
abbrev main_v397 : Ref sig .tc := ⟨.hbm, 456, rfl⟩
abbrev main_cst_45 : Ref sig .tc := ⟨.hbm, 457, rfl⟩
abbrev main_v398 : Ref sig .tc := ⟨.hbm, 458, rfl⟩
abbrev main_v399 : Ref sig .tc := ⟨.hbm, 459, rfl⟩
abbrev main_cst_46 : Ref sig .tc := ⟨.hbm, 460, rfl⟩
abbrev main_v400 : Ref sig .tc := ⟨.hbm, 461, rfl⟩
abbrev main_v401 : Ref sig .tc := ⟨.hbm, 462, rfl⟩
abbrev main_v402 : Ref sig .tc := ⟨.hbm, 463, rfl⟩
abbrev main_v403 : Ref sig .tc := ⟨.hbm, 464, rfl⟩
abbrev main_v404 : Ref sig .tc := ⟨.hbm, 465, rfl⟩
abbrev main_cst_47 : Ref sig .tc := ⟨.hbm, 466, rfl⟩
abbrev main_v405 : Ref sig .tc := ⟨.hbm, 467, rfl⟩
abbrev main_v406 : Ref sig .tc := ⟨.hbm, 468, rfl⟩
abbrev main_cst_48 : Ref sig .tc := ⟨.hbm, 469, rfl⟩
abbrev main_v407 : Ref sig .tc := ⟨.hbm, 470, rfl⟩
abbrev main_v408 : Ref sig .tc := ⟨.hbm, 471, rfl⟩
abbrev main_v409 : Ref sig .tc := ⟨.hbm, 472, rfl⟩
abbrev main_v410 : Ref sig .tc := ⟨.hbm, 473, rfl⟩
abbrev main_v411 : Ref sig .tc := ⟨.hbm, 474, rfl⟩
abbrev main_cst_49 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩
abbrev main_v415 : Ref sig .tc := ⟨.hbm, 479, rfl⟩
abbrev main_v416 : Ref sig .tc := ⟨.hbm, 480, rfl⟩
abbrev main_v417 : Ref sig .tc := ⟨.hbm, 481, rfl⟩
abbrev main_v418 : Ref sig .tc := ⟨.hbm, 482, rfl⟩
abbrev main_v419 : Ref sig .tc := ⟨.hbm, 483, rfl⟩
abbrev main_v420 : Ref sig .tc := ⟨.hbm, 484, rfl⟩
abbrev main_v421 : Ref sig .tc := ⟨.hbm, 485, rfl⟩
abbrev main_v422 : Ref sig .tc := ⟨.hbm, 486, rfl⟩
abbrev main_v423 : Ref sig .tc := ⟨.hbm, 487, rfl⟩
abbrev main_v424 : Ref sig .tc := ⟨.hbm, 488, rfl⟩
abbrev main_v425 : Ref sig .tc := ⟨.hbm, 489, rfl⟩
abbrev main_v426 : Ref sig .tc := ⟨.hbm, 490, rfl⟩
abbrev main_v427 : Ref sig .tc := ⟨.hbm, 491, rfl⟩
abbrev main_v428 : Ref sig .tc := ⟨.hbm, 492, rfl⟩
abbrev main_v429 : Ref sig .tc := ⟨.hbm, 493, rfl⟩
abbrev main_v430 : Ref sig .tc := ⟨.hbm, 494, rfl⟩
abbrev main_v431 : Ref sig .tc := ⟨.hbm, 495, rfl⟩
abbrev main_v432 : Ref sig .tc := ⟨.hbm, 496, rfl⟩
abbrev main_v433 : Ref sig .tc := ⟨.hbm, 497, rfl⟩
abbrev main_v434 : Ref sig .tc := ⟨.hbm, 498, rfl⟩
abbrev main_v435 : Ref sig .tc := ⟨.hbm, 499, rfl⟩
abbrev main_v436 : Ref sig .tc := ⟨.hbm, 500, rfl⟩
abbrev main_v437 : Ref sig .tc := ⟨.hbm, 501, rfl⟩
abbrev main_v438 : Ref sig .tc := ⟨.hbm, 502, rfl⟩
abbrev main_v439 : Ref sig .tc := ⟨.hbm, 503, rfl⟩
abbrev main_v440 : Ref sig .tc := ⟨.hbm, 504, rfl⟩
abbrev main_cst_50 : Ref sig .tc := ⟨.hbm, 505, rfl⟩
abbrev main_v441 : Ref sig .tc := ⟨.hbm, 506, rfl⟩
abbrev main_v442 : Ref sig .tc := ⟨.hbm, 507, rfl⟩
abbrev main_cst_51 : Ref sig .tc := ⟨.hbm, 508, rfl⟩
abbrev main_v443 : Ref sig .tc := ⟨.hbm, 509, rfl⟩
abbrev main_v444 : Ref sig .tc := ⟨.hbm, 510, rfl⟩
abbrev main_v445 : Ref sig .tc := ⟨.hbm, 511, rfl⟩
abbrev main_v446 : Ref sig .tc := ⟨.hbm, 512, rfl⟩
abbrev main_v447 : Ref sig .tc := ⟨.hbm, 513, rfl⟩
abbrev main_cst_52 : Ref sig .tc := ⟨.hbm, 514, rfl⟩
abbrev main_v448 : Ref sig .tc := ⟨.hbm, 515, rfl⟩
abbrev main_v449 : Ref sig .tc := ⟨.hbm, 516, rfl⟩
abbrev main_cst_53 : Ref sig .tc := ⟨.hbm, 517, rfl⟩
abbrev main_v450 : Ref sig .tc := ⟨.hbm, 518, rfl⟩
abbrev main_v451 : Ref sig .tc := ⟨.hbm, 519, rfl⟩
abbrev main_v452 : Ref sig .tc := ⟨.hbm, 520, rfl⟩
abbrev main_v453 : Ref sig .tc := ⟨.hbm, 521, rfl⟩
abbrev main_v454 : Ref sig .tc := ⟨.hbm, 522, rfl⟩
abbrev main_cst_54 : Ref sig .tc := ⟨.hbm, 523, rfl⟩
abbrev main_v455 : Ref sig .tc := ⟨.hbm, 524, rfl⟩
abbrev main_v456 : Ref sig .tc := ⟨.hbm, 525, rfl⟩
abbrev main_v457 : Ref sig .tc := ⟨.hbm, 526, rfl⟩
abbrev main_v458 : Ref sig .tc := ⟨.hbm, 527, rfl⟩
abbrev main_v459 : Ref sig .tc := ⟨.hbm, 528, rfl⟩
abbrev main_v460 : Ref sig .tc := ⟨.hbm, 529, rfl⟩
abbrev main_v461 : Ref sig .tc := ⟨.hbm, 530, rfl⟩
abbrev main_v462 : Ref sig .tc := ⟨.hbm, 531, rfl⟩
abbrev main_v463 : Ref sig .tc := ⟨.hbm, 532, rfl⟩
abbrev main_v464 : Ref sig .tc := ⟨.hbm, 533, rfl⟩
abbrev main_v465 : Ref sig .tc := ⟨.hbm, 534, rfl⟩
abbrev main_v466 : Ref sig .tc := ⟨.hbm, 535, rfl⟩
abbrev main_v467 : Ref sig .tc := ⟨.hbm, 536, rfl⟩
abbrev main_v468 : Ref sig .tc := ⟨.hbm, 537, rfl⟩
abbrev main_v469 : Ref sig .tc := ⟨.hbm, 538, rfl⟩
abbrev main_v470 : Ref sig .tc := ⟨.hbm, 539, rfl⟩
abbrev main_v471 : Ref sig .tc := ⟨.hbm, 540, rfl⟩
abbrev main_v472 : Ref sig .tc := ⟨.hbm, 541, rfl⟩
abbrev main_v473 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_v478 : Ref sig .tc := ⟨.hbm, 547, rfl⟩
abbrev main_v479 : Ref sig .tc := ⟨.hbm, 548, rfl⟩
abbrev main_v480 : Ref sig .tc := ⟨.hbm, 549, rfl⟩
abbrev main_v481 : Ref sig .tc := ⟨.hbm, 550, rfl⟩
abbrev main_v482 : Ref sig .tc := ⟨.hbm, 551, rfl⟩
abbrev main_v483 : Ref sig .tc := ⟨.hbm, 552, rfl⟩
abbrev main_cst_55 : Ref sig .tc := ⟨.hbm, 553, rfl⟩
abbrev main_v484 : Ref sig .tc := ⟨.hbm, 554, rfl⟩
abbrev main_v485 : Ref sig .tc := ⟨.hbm, 555, rfl⟩
abbrev main_cst_56 : Ref sig .tc := ⟨.hbm, 556, rfl⟩
abbrev main_v486 : Ref sig .tc := ⟨.hbm, 557, rfl⟩
abbrev main_v487 : Ref sig .tc := ⟨.hbm, 558, rfl⟩
abbrev main_v488 : Ref sig .tc := ⟨.hbm, 559, rfl⟩
abbrev main_v489 : Ref sig .tc := ⟨.hbm, 560, rfl⟩
abbrev main_v490 : Ref sig .tc := ⟨.hbm, 561, rfl⟩
abbrev main_cst_57 : Ref sig .tc := ⟨.hbm, 562, rfl⟩
abbrev main_v491 : Ref sig .tc := ⟨.hbm, 563, rfl⟩
abbrev main_v492 : Ref sig .tc := ⟨.hbm, 564, rfl⟩
abbrev main_cst_58 : Ref sig .tc := ⟨.hbm, 565, rfl⟩
abbrev main_v493 : Ref sig .tc := ⟨.hbm, 566, rfl⟩
abbrev main_v494 : Ref sig .tc := ⟨.hbm, 567, rfl⟩
abbrev main_v495 : Ref sig .tc := ⟨.hbm, 568, rfl⟩
abbrev main_v496 : Ref sig .tc := ⟨.hbm, 569, rfl⟩
abbrev main_v497 : Ref sig .tc := ⟨.hbm, 570, rfl⟩
abbrev main_cst_59 : Ref sig .tc := ⟨.hbm, 571, rfl⟩
abbrev main_v498 : Ref sig .tc := ⟨.hbm, 572, rfl⟩
abbrev main_v499 : Ref sig .tc := ⟨.hbm, 573, rfl⟩
abbrev main_v500 : Ref sig .tc := ⟨.hbm, 574, rfl⟩
abbrev main_v501 : Ref sig .tc := ⟨.hbm, 575, rfl⟩
abbrev main_v502 : Ref sig .tc := ⟨.hbm, 576, rfl⟩
abbrev main_v503 : Ref sig .tc := ⟨.hbm, 577, rfl⟩
abbrev main_v504 : Ref sig .tc := ⟨.hbm, 578, rfl⟩
abbrev main_v505 : Ref sig .tc := ⟨.hbm, 579, rfl⟩
abbrev main_v506 : Ref sig .tc := ⟨.hbm, 580, rfl⟩
abbrev main_v507 : Ref sig .tc := ⟨.hbm, 581, rfl⟩
abbrev main_v508 : Ref sig .tc := ⟨.hbm, 582, rfl⟩
abbrev main_v509 : Ref sig .tc := ⟨.hbm, 583, rfl⟩
abbrev main_v510 : Ref sig .tc := ⟨.hbm, 584, rfl⟩
abbrev main_v511 : Ref sig .tc := ⟨.hbm, 585, rfl⟩
abbrev main_v512 : Ref sig .tc := ⟨.hbm, 586, rfl⟩
abbrev main_v513 : Ref sig .tc := ⟨.hbm, 587, rfl⟩
abbrev main_v514 : Ref sig .tc := ⟨.hbm, 588, rfl⟩
abbrev main_v515 : Ref sig .tc := ⟨.hbm, 589, rfl⟩
abbrev main_v516 : Ref sig .tc := ⟨.hbm, 590, rfl⟩
abbrev main_v517 : Ref sig .tc := ⟨.hbm, 591, rfl⟩
abbrev main_v518 : Ref sig .tc := ⟨.hbm, 592, rfl⟩
abbrev main_v519 : Ref sig .tc := ⟨.hbm, 593, rfl⟩
abbrev main_v520 : Ref sig .tc := ⟨.hbm, 594, rfl⟩
abbrev main_v521 : Ref sig .tc := ⟨.hbm, 595, rfl⟩
abbrev main_v522 : Ref sig .tc := ⟨.hbm, 596, rfl⟩
abbrev main_v523 : Ref sig .tc := ⟨.hbm, 597, rfl⟩
abbrev main_v524 : Ref sig .tc := ⟨.hbm, 598, rfl⟩
abbrev main_v525 : Ref sig .tc := ⟨.hbm, 599, rfl⟩
abbrev main_v526 : Ref sig .tc := ⟨.hbm, 600, rfl⟩
abbrev main_cst_60 : Ref sig .tc := ⟨.hbm, 601, rfl⟩
abbrev main_v527 : Ref sig .tc := ⟨.hbm, 602, rfl⟩
abbrev main_v528 : Ref sig .tc := ⟨.hbm, 603, rfl⟩
abbrev main_cst_61 : Ref sig .tc := ⟨.hbm, 604, rfl⟩
abbrev main_v529 : Ref sig .tc := ⟨.hbm, 605, rfl⟩
abbrev main_v530 : Ref sig .tc := ⟨.hbm, 606, rfl⟩
abbrev main_v531 : Ref sig .tc := ⟨.hbm, 607, rfl⟩
abbrev main_v532 : Ref sig .tc := ⟨.hbm, 608, rfl⟩
abbrev main_v533 : Ref sig .tc := ⟨.hbm, 609, rfl⟩
abbrev main_cst_62 : Ref sig .tc := ⟨.hbm, 610, rfl⟩
abbrev main_v534 : Ref sig .tc := ⟨.hbm, 611, rfl⟩
abbrev main_v535 : Ref sig .tc := ⟨.hbm, 612, rfl⟩
abbrev main_cst_63 : Ref sig .tc := ⟨.hbm, 613, rfl⟩
abbrev main_v536 : Ref sig .tc := ⟨.hbm, 614, rfl⟩
abbrev main_v537 : Ref sig .tc := ⟨.hbm, 615, rfl⟩
abbrev main_v538 : Ref sig .tc := ⟨.hbm, 616, rfl⟩
abbrev main_v539 : Ref sig .tc := ⟨.hbm, 617, rfl⟩
abbrev main_v540 : Ref sig .tc := ⟨.hbm, 618, rfl⟩
abbrev main_cst_64 : Ref sig .tc := ⟨.hbm, 619, rfl⟩
abbrev main_v541 : Ref sig .tc := ⟨.hbm, 620, rfl⟩
abbrev main_v542 : Ref sig .tc := ⟨.hbm, 621, rfl⟩
abbrev main_v543 : Ref sig .tc := ⟨.hbm, 622, rfl⟩
abbrev main_v544 : Ref sig .tc := ⟨.hbm, 623, rfl⟩
abbrev main_v545 : Ref sig .tc := ⟨.hbm, 624, rfl⟩
abbrev main_v546 : Ref sig .tc := ⟨.hbm, 625, rfl⟩
abbrev main_v547 : Ref sig .tc := ⟨.hbm, 626, rfl⟩
abbrev main_v548 : Ref sig .tc := ⟨.hbm, 627, rfl⟩
abbrev main_v549 : Ref sig .tc := ⟨.hbm, 628, rfl⟩
abbrev main_v550 : Ref sig .tc := ⟨.hbm, 629, rfl⟩
abbrev main_v551 : Ref sig .tc := ⟨.hbm, 630, rfl⟩
abbrev main_v552 : Ref sig .tc := ⟨.hbm, 631, rfl⟩
abbrev main_v553 : Ref sig .tc := ⟨.hbm, 632, rfl⟩
abbrev main_v554 : Ref sig .tc := ⟨.hbm, 633, rfl⟩
abbrev main_v555 : Ref sig .tc := ⟨.hbm, 634, rfl⟩
abbrev main_v556 : Ref sig .tc := ⟨.hbm, 635, rfl⟩
abbrev main_v557 : Ref sig .tc := ⟨.hbm, 636, rfl⟩
abbrev main_v558 : Ref sig .tc := ⟨.hbm, 637, rfl⟩
abbrev main_v559 : Ref sig .tc := ⟨.hbm, 638, rfl⟩
abbrev main_v560 : Ref sig .tc := ⟨.hbm, 639, rfl⟩
abbrev main_v561 : Ref sig .tc := ⟨.hbm, 640, rfl⟩
abbrev main_v562 : Ref sig .tc := ⟨.hbm, 641, rfl⟩
abbrev main_v563 : Ref sig .tc := ⟨.hbm, 642, rfl⟩
abbrev main_v564 : Ref sig .tc := ⟨.hbm, 643, rfl⟩
abbrev main_v565 : Ref sig .tc := ⟨.hbm, 644, rfl⟩
abbrev main_v566 : Ref sig .tc := ⟨.hbm, 645, rfl⟩
abbrev main_v567 : Ref sig .tc := ⟨.hbm, 646, rfl⟩
abbrev main_v568 : Ref sig .tc := ⟨.hbm, 647, rfl⟩
abbrev main_v569 : Ref sig .tc := ⟨.hbm, 648, rfl⟩
abbrev main_cst_65 : Ref sig .tc := ⟨.hbm, 649, rfl⟩
abbrev main_v570 : Ref sig .tc := ⟨.hbm, 650, rfl⟩
abbrev main_v571 : Ref sig .tc := ⟨.hbm, 651, rfl⟩
abbrev main_cst_66 : Ref sig .tc := ⟨.hbm, 652, rfl⟩
abbrev main_v572 : Ref sig .tc := ⟨.hbm, 653, rfl⟩
abbrev main_v573 : Ref sig .tc := ⟨.hbm, 654, rfl⟩
abbrev main_v574 : Ref sig .tc := ⟨.hbm, 655, rfl⟩
abbrev main_v575 : Ref sig .tc := ⟨.hbm, 656, rfl⟩
abbrev main_v576 : Ref sig .tc := ⟨.hbm, 657, rfl⟩
abbrev main_cst_67 : Ref sig .tc := ⟨.hbm, 658, rfl⟩
abbrev main_v577 : Ref sig .tc := ⟨.hbm, 659, rfl⟩
abbrev main_v578 : Ref sig .tc := ⟨.hbm, 660, rfl⟩
abbrev main_cst_68 : Ref sig .tc := ⟨.hbm, 661, rfl⟩
abbrev main_v579 : Ref sig .tc := ⟨.hbm, 662, rfl⟩
abbrev main_v580 : Ref sig .tc := ⟨.hbm, 663, rfl⟩
abbrev main_v581 : Ref sig .tc := ⟨.hbm, 664, rfl⟩
abbrev main_v582 : Ref sig .tc := ⟨.hbm, 665, rfl⟩
abbrev main_v583 : Ref sig .tc := ⟨.hbm, 666, rfl⟩
abbrev main_cst_69 : Ref sig .tc := ⟨.hbm, 667, rfl⟩
abbrev main_v584 : Ref sig .tc := ⟨.hbm, 668, rfl⟩
abbrev main_v585 : Ref sig .tc := ⟨.hbm, 669, rfl⟩
abbrev main_v586 : Ref sig .tc := ⟨.hbm, 670, rfl⟩
abbrev main_v587 : Ref sig .tc := ⟨.hbm, 671, rfl⟩
abbrev main_v588 : Ref sig .tc := ⟨.hbm, 672, rfl⟩
abbrev main_v589 : Ref sig .tc := ⟨.hbm, 673, rfl⟩
abbrev main_v590 : Ref sig .tc := ⟨.hbm, 674, rfl⟩
abbrev main_v591 : Ref sig .tc := ⟨.hbm, 675, rfl⟩
abbrev main_v592 : Ref sig .tc := ⟨.hbm, 676, rfl⟩
abbrev main_v593 : Ref sig .tc := ⟨.hbm, 677, rfl⟩
abbrev main_v594 : Ref sig .tc := ⟨.hbm, 678, rfl⟩

abbrev nD : Nat := 1
abbrev τ : Topo := Topo.v7x

variable {F : FTy → Type} [FloatOps F]

class Facts₀ : Prop where
  slices_S2097152x18_S2097152x4_0_0 : S2097152x18.Slices ![0, 0] S2097152x4
  slices_S2097152x18_S2097152x7_0_4 : S2097152x18.Slices ![0, 4] S2097152x7
  slices_S2097152x18_S2097152x7_0_11 : S2097152x18.Slices ![0, 11] S2097152x7
  bcast_S2097152x7_S2097152x1x7_0_2 : S2097152x7.BroadcastsInDim S2097152x1x7 (![0, 2] : Fin 2 → Fin S2097152x1x7.rank)
  concatenates_S2097152x1x7_S2097152x1x7_S2097152x2x7_d1 : Shape.Concatenates [S2097152x1x7, S2097152x1x7] S2097152x2x7 1
  bcast_S_S2097152x2 : S_.BroadcastsInDim S2097152x2 (![] : Fin 0 → Fin S2097152x2.rank)
  slices_S2097152x2x7_S2097152x2x1_0_0_6 : S2097152x2x7.Slices ![0, 0, 6] S2097152x2x1
  shapeCasts_S2097152x2x1_S2097152x2 : S2097152x2x1.ShapeCasts S2097152x2
  transposes_S6x2_S2x6_1_0 : S6x2.Transposes [1, 0] S2x6
  bcast_S6_S1x6_1 : S6.BroadcastsInDim S1x6 (![1] : Fin 1 → Fin S1x6.rank)
  bcast_S1x6_S2097152x6_0_1 : S1x6.BroadcastsInDim S2097152x6 (![0, 1] : Fin 2 → Fin S2097152x6.rank)
  slices_S2097152x6_S2097152x2_0_0 : S2097152x6.Slices ![0, 0] S2097152x2
  slices_S2097152x6_S2097152x2_0_2 : S2097152x6.Slices ![0, 2] S2097152x2
  slices_S2097152x6_S2097152x2_0_4 : S2097152x6.Slices ![0, 4] S2097152x2
  slices_S2097152x2x7_S2097152x2x1_0_0_5 : S2097152x2x7.Slices ![0, 0, 5] S2097152x2x1
  slices_S2097152x2x7_S2097152x2x1_0_0_4 : S2097152x2x7.Slices ![0, 0, 4] S2097152x2x1
  slices_S2097152x2x7_S2097152x2x1_0_0_3 : S2097152x2x7.Slices ![0, 0, 3] S2097152x2x1
  slices_S2097152x2x7_S2097152x2x1_0_0_2 : S2097152x2x7.Slices ![0, 0, 2] S2097152x2x1
  slices_S2097152x2x7_S2097152x2x1_0_0_1 : S2097152x2x7.Slices ![0, 0, 1] S2097152x2x1
  slices_S2097152x2x7_S2097152x2x1_0_0_0 : S2097152x2x7.Slices ![0, 0, 0] S2097152x2x1
  concatenates_S2097152x4_S2097152x2_S2097152x6_d1 : Shape.Concatenates [S2097152x4, S2097152x2] S2097152x6 1
  transposes_S2x6_S6x2_1_0 : S2x6.Transposes [1, 0] S6x2
  bcast_S2_S1x2_1 : S2.BroadcastsInDim S1x2 (![1] : Fin 1 → Fin S1x2.rank)
  bcast_S1x2_S2097152x2_0_1 : S1x2.BroadcastsInDim S2097152x2 (![0, 1] : Fin 2 → Fin S2097152x2.rank)
  transposes_S1x2_S2x1_1_0 : S1x2.Transposes [1, 0] S2x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  concatenates_S2097152x1_S2097152x1_S2097152x1_S2097152x1_S2097152x1_S2097152x1_S2097152x1_S2097152x7_d1 : Shape.Concatenates [S2097152x1, S2097152x1, S2097152x1, S2097152x1, S2097152x1, S2097152x1, S2097152x1] S2097152x7 1
  dot_S2097152x2_S2x6_S2097152x6_1_0_0_1_n_n_wf : DotDims.WF S2097152x2 S2x6 S2097152x6 [1] [0] [0] [1] [] []
  dot_S2097152x6_S6x2_S2097152x2_1_0_0_1_n_n_wf : DotDims.WF S2097152x6 S6x2 S2097152x2 [1] [0] [0] [1] [] []
  dot_S2097152x2_S2x1_S2097152x1_1_0_0_1_n_n_wf : DotDims.WF S2097152x2 S2x1 S2097152x1 [1] [0] [0] [1] [] []

variable [Facts₀]

def dot_S2097152x2_S2x6_S2097152x6_1_0_0_1_n_n : DotDims S2097152x2 S2x6 S2097152x6 where
  lhsContracting := [1]
  rhsContracting := [0]
  lhsNonContracting := [0]
  rhsNonContracting := [1]
  lhsBatch := []
  rhsBatch := []
  wf := dot_S2097152x2_S2x6_S2097152x6_1_0_0_1_n_n_wf
def dot_S2097152x6_S6x2_S2097152x2_1_0_0_1_n_n : DotDims S2097152x6 S6x2 S2097152x2 where
  lhsContracting := [1]
  rhsContracting := [0]
  lhsNonContracting := [0]
  rhsNonContracting := [1]
  lhsBatch := []
  rhsBatch := []
  wf := dot_S2097152x6_S6x2_S2097152x2_1_0_0_1_n_n_wf
def dot_S2097152x2_S2x1_S2097152x1_1_0_0_1_n_n : DotDims S2097152x2 S2x1 S2097152x1 where
  lhsContracting := [1]
  rhsContracting := [0]
  lhsNonContracting := [0]
  rhsNonContracting := [1]
  lhsBatch := []
  rhsBatch := []
  wf := dot_S2097152x2_S2x1_S2097152x1_1_0_0_1_n_n_wf

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«130514_j56839597195499_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«130514_j56839597195499_2_alg».proof.Proof.LibDenseRows
import proofs.«130514_j56839597195499_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«130514_j56839597195499_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.LibLogistic.lean ====
/-
  General lemmas about the logistic function on the extended reals, for programs that spell it out.

  * `one_word`: the single-precision word 0x3F800000 (the literal 1.0) denotes the real 1.
  * `logistic_spelt`: the quotient 1 / (1 + e^(−r)), with both ones given by that word, the quotient the extended reals'
    total one and the exponential the exact one, is the logistic function of r — for every extended real r, the two
    infinities included, since the logistic function is defined there as exactly this quotient.
-/
import Idealize.ShloMosaic.PureOps.Ideal

noncomputable section

namespace Cert.Logistic

open Idealize.ShloMosaic

/-- The single-precision word of 1.0 denotes the real 1. -/
theorem one_word : Ideal.ofBits .f32 0x3F800000#32 = 1 := by
  simp [Ideal.ofBits, Ideal.ieee, -EReal.coe_mul]; norm_num

/-- 1 / (1 + e^(−r)) with both ones given by their word is the logistic function of r. -/
theorem logistic_spelt (r : EReal) :
    Ideal.div (Ideal.ofBits .f32 0x3F800000#32) (Ideal.ofBits .f32 0x3F800000#32 + Ideal.exp (-r)) = Ideal.logistic r := by
  rw [one_word]; rfl

end Cert.Logistic

end
-- ==== Proof.LibGruLayers.lean ====
/-
  General lemmas for gated recurrent (GRU) cells applied to every row of an array, read at the exact (extended-real)
  instance one entry at a time, in the two spellings a program gives them.

  The arithmetic of one cell, on extended reals (no array in sight):
  * lin W b v j = ∑ₖ v k · W j k + b j, an affine map applied to one row;
  * gate gi gh h c = (1 − σ(gi z + gh z)) · tanh (gi n + σ(gi r + gh r) · gh n) + σ(gi z + gh z) · h, where the six
    entries of the two gate vectors are laid out as reset (c), update (2 + c), candidate (4 + c), σ is the logistic
    function and 1 is the single-precision word of 1.0;
  * cell Wi Wh bi bh x h c = gate (lin Wi bi x) (lin Wh bh h) (h c) c.

  The arrays:
  * denseK_apply / denseH_apply: rows times the transpose of an [N, K] weight array plus a bias, as a kernel body spells
    it (transpose, product into a zero accumulator, a [1, N] bias row repeated down the rows) and as a host program spells
    it (transpose, product, an [N] bias laid as a row and down the rows): at (p, j) it is lin of row p.
  * gateK_apply / gateH_apply: the gate arithmetic on whole [M, 6] gate arrays, the kernel body's with the logistic
    function as one operation, the host's with it spelt 1 / (1 + e^(−x)): at (p, c) it is gate of row p's entries.
  * cellK_apply / cellH_apply: the two together.
  * cell_congr, lin_congr: a cell and an affine map depend on their rows only through the rows' entries.
  * pair_cols_apply, cols42_apply: two arrays set side by side along the last axis, read at an entry.
  * col_of_band_apply: a column cut out of a band of columns of an array.
  * band_mid_apply, stack_apply, cut_last_apply: the host's route to the same pair of entries — two bands given a unit
    middle axis, stacked along it, one position of the last axis cut out and the unit axis dropped.
  * seven_cols_apply: seven [M, 1] columns set side by side.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws
import proofs.«130514_j56839597195499_2_alg».proof.Proof.LibPlainLayers
import proofs.«130514_j56839597195499_2_alg».proof.Proof.LibGraphConv
import proofs.«130514_j56839597195499_2_alg».proof.Proof.LibLogistic

noncomputable section

open scoped BigOperators

namespace Cert.GruLayers

open Idealize.ShloMosaic Idealize.ShloMosaic.ValueIdx

/-! ## One cell on the extended reals -/

/-- The single-precision word of 1.0, as the extended real it denotes. -/
abbrev oneW : EReal := Ideal.ofBits .f32 0x3F800000#32

/-- Position of hidden unit c's reset gate among the six gate entries. -/
def gr (c : Fin 2) : Fin 6 := ⟨c.val, by have := c.isLt; omega⟩
/-- Position of hidden unit c's update gate. -/
def gz (c : Fin 2) : Fin 6 := ⟨2 + c.val, by have := c.isLt; omega⟩
/-- Position of hidden unit c's candidate entry. -/
def gn (c : Fin 2) : Fin 6 := ⟨4 + c.val, by have := c.isLt; omega⟩

/-- An affine map applied to one row: ∑ₖ v k · W j k + b j. -/
def lin {K N : ℕ} (W : Fin N → Fin K → EReal) (b : Fin N → EReal) (v : Fin K → EReal) (j : Fin N) : EReal :=
  (∑ k : Fin K, v k * W j k) + b j

/-- The gate arithmetic of one hidden unit from the two gate vectors and the unit's previous value. -/
def gate (gi gh : Fin 6 → EReal) (h : EReal) (c : Fin 2) : EReal :=
  (oneW - Ideal.logistic (gi (gz c) + gh (gz c)))
      * Ideal.tanh (gi (gn c) + Ideal.logistic (gi (gr c) + gh (gr c)) * gh (gn c))
    + Ideal.logistic (gi (gz c) + gh (gz c)) * h

/-- One cell: input x, previous state h, new state at unit c. -/
def cell (Wi Wh : Fin 6 → Fin 2 → EReal) (bi bh : Fin 6 → EReal) (x h : Fin 2 → EReal) (c : Fin 2) : EReal :=
  gate (lin Wi bi x) (lin Wh bh h) (h c) c

/-- A cell depends on its input and previous state only through their entries. -/
theorem cell_congr {Wi Wh : Fin 6 → Fin 2 → EReal} {bi bh : Fin 6 → EReal} {x x' h h' : Fin 2 → EReal}
    (hx : ∀ k, x k = x' k) (hh : ∀ k, h k = h' k) (c : Fin 2) :
    cell Wi Wh bi bh x h c = cell Wi Wh bi bh x' h' c := by
  rw [funext hx, funext hh]

/-- An affine map depends on its row only through the row's entries. -/
theorem lin_congr {K N : ℕ} {W : Fin N → Fin K → EReal} {b : Fin N → EReal} {v v' : Fin K → EReal}
    (hv : ∀ k, v k = v' k) (j : Fin N) : lin W b v j = lin W b v' j := by
  rw [funext hv]

/-! ## A dense layer with transposed weights, in the two spellings -/

variable {M K N : ℕ}

/-- Kernel body: rows times the transpose of the weights into a zero accumulator, plus a [1, N] bias row repeated down
    the rows. -/
theorem denseK_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨2, ![1, N]⟩ .f32)
    (hb : (⟨2, ![1, N]⟩ : Shape).Broadcasts ⟨2, ![M, N]⟩) (p : Fin M) (j : Fin N) :
    addf (matmul D prec h (transpose ⟨2, ![K, N]⟩ [1, 0] w ht) (constant ⟨2, ![M, N]⟩ .f32 0x00000000#32))
        (broadcastTo ⟨2, ![M, N]⟩ b hb) (ix2 p j)
      = lin (fun j k => w (ix2 j k)) (fun j => b (ix2 (0 : Fin 1) j)) (fun k => h (ix2 p k)) j := by
  unfold lin
  exact congrArg₂ (· + ·)
    ((Cert.PlainLayers.plainMM_of_eq D hD prec h _ p j).trans
      (Finset.sum_congr rfl fun k _ => congrArg (h (ix2 p k) * ·) (transpose_ix2_apply w ht k j)))
    (broadcastTo_1b_ab_apply _ hb p j)

/-- An [N] vector laid as a [1, N] row by the host reads, at (u, j), the vector at j. -/
theorem rowOfVec_apply {α : Type} (h : (⟨1, ![N]⟩ : Shape).BroadcastsInDim ⟨2, ![1, N]⟩ ![1])
    (v : (⟨1, ![N]⟩ : Shape).Idx → α) (u : Fin 1) (j : Fin N) :
    broadcastInDim ⟨2, ![1, N]⟩ ![1] h v (ix2 u j) = v (ix1 j) := by
  refine broadcastInDim_apply ![1] h v (ix2 u j) (ix1 j) fun ax => ?_
  match ax with
  | ⟨0, _⟩ =>
    show j.val = if N = 1 then 0 else j.val
    split
    · have := j.isLt; omega
    · rfl

/-- Host program: rows times the transpose of the weights, plus an [N] bias laid as a row and repeated down the rows. -/
theorem denseH_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![N, K]⟩ .f32)
    (ht : (⟨2, ![N, K]⟩ : Shape).Transposes [1, 0] ⟨2, ![K, N]⟩) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    addf (Host.dotGeneral D prec x (transpose ⟨2, ![K, N]⟩ [1, 0] w ht))
        (broadcastInDim ⟨2, ![M, N]⟩ ![0, 1] h2 (broadcastInDim ⟨2, ![1, N]⟩ ![1] h1 b)) (ix2 p j)
      = lin (fun j k => w (ix2 j k)) (fun j => b (ix1 j)) (fun k => x (ix2 p k)) j := by
  unfold lin
  exact congrArg₂ (· + ·)
    ((Cert.GraphConv.hostMM_apply D hD prec x _ p j).trans
      (Finset.sum_congr rfl fun k _ => congrArg (x (ix2 p k) * ·) (transpose_ix2_apply w ht k j)))
    ((broadcastInDim_oneRow_apply h2 _ p j).trans (rowOfVec_apply h1 b 0 j))

/-! ## The gate arithmetic on whole gate arrays -/

section gates
variable (gi gh : FVec Ideal ⟨2, ![M, 6]⟩ .f32) (h : FVec Ideal ⟨2, ![M, 2]⟩ .f32)
  (s0 : (⟨2, ![M, 6]⟩ : Shape).Slices ![0, 0] ⟨2, ![M, 2]⟩)
  (s2 : (⟨2, ![M, 6]⟩ : Shape).Slices ![0, 2] ⟨2, ![M, 2]⟩)
  (s4 : (⟨2, ![M, 6]⟩ : Shape).Slices ![0, 4] ⟨2, ![M, 2]⟩) (p : Fin M) (c : Fin 2)

theorem cut_r (X : FVec Ideal ⟨2, ![M, 6]⟩ .f32) :
    extractStridedSlice ⟨2, ![M, 2]⟩ ![0, 0] X s0 (ix2 p c) = X (ix2 p (gr c)) :=
  slice2_axis1_apply 0 X s0 p c (gr c) (Nat.zero_add _).symm

theorem cut_z (X : FVec Ideal ⟨2, ![M, 6]⟩ .f32) :
    extractStridedSlice ⟨2, ![M, 2]⟩ ![0, 2] X s2 (ix2 p c) = X (ix2 p (gz c)) :=
  slice2_axis1_apply 2 X s2 p c (gz c) rfl

theorem cut_n (X : FVec Ideal ⟨2, ![M, 6]⟩ .f32) :
    extractStridedSlice ⟨2, ![M, 2]⟩ ![0, 4] X s4 (ix2 p c) = X (ix2 p (gn c)) :=
  slice2_axis1_apply 4 X s4 p c (gn c) rfl

/-- Kernel body: the gates with the logistic function as one operation. -/
theorem gateK_apply :
    addf
      (mulf
        (subf (broadcast ⟨2, ![M, 2]⟩ (Scalar.ofBits (F := Ideal) .f32 0x3F800000#32))
          (logistic (addf (extractStridedSlice ⟨2, ![M, 2]⟩ ![0, 2] gi s2) (extractStridedSlice ⟨2, ![M, 2]⟩ ![0, 2] gh s2))))
        (tanh (addf (extractStridedSlice ⟨2, ![M, 2]⟩ ![0, 4] gi s4)
          (mulf (logistic (addf (extractStridedSlice ⟨2, ![M, 2]⟩ ![0, 0] gi s0) (extractStridedSlice ⟨2, ![M, 2]⟩ ![0, 0] gh s0)))
            (extractStridedSlice ⟨2, ![M, 2]⟩ ![0, 4] gh s4)))))
      (mulf (logistic (addf (extractStridedSlice ⟨2, ![M, 2]⟩ ![0, 2] gi s2) (extractStridedSlice ⟨2, ![M, 2]⟩ ![0, 2] gh s2))) h)
      (ix2 p c)
      = gate (fun j => gi (ix2 p j)) (fun j => gh (ix2 p j)) (h (ix2 p c)) c := by
  unfold gate
  show (oneW - Ideal.logistic (extractStridedSlice ⟨2, ![M, 2]⟩ ![0, 2] gi s2 (ix2 p c) + extractStridedSlice ⟨2, ![M, 2]⟩ ![0, 2] gh s2 (ix2 p c)))
        * Ideal.tanh (extractStridedSlice ⟨2, ![M, 2]⟩ ![0, 4] gi s4 (ix2 p c)
            + Ideal.logistic (extractStridedSlice ⟨2, ![M, 2]⟩ ![0, 0] gi s0 (ix2 p c) + extractStridedSlice ⟨2, ![M, 2]⟩ ![0, 0] gh s0 (ix2 p c))
              * extractStridedSlice ⟨2, ![M, 2]⟩ ![0, 4] gh s4 (ix2 p c))
      + Ideal.logistic (extractStridedSlice ⟨2, ![M, 2]⟩ ![0, 2] gi s2 (ix2 p c) + extractStridedSlice ⟨2, ![M, 2]⟩ ![0, 2] gh s2 (ix2 p c))
        * h (ix2 p c) = _
  rw [cut_r s0 p c gi, cut_r s0 p c gh, cut_z s2 p c gi, cut_z s2 p c gh, cut_n s4 p c gi, cut_n s4 p c gh]

/-- The host's array of ones: the scalar 1.0 broadcast to [M, 2]. -/
abbrev onesH (hone : (⟨0, ![]⟩ : Shape).BroadcastsInDim ⟨2, ![M, 2]⟩ ![]) : FVec Ideal ⟨2, ![M, 2]⟩ .f32 :=
  broadcastInDim ⟨2, ![M, 2]⟩ ![] hone (constant ⟨0, ![]⟩ .f32 0x3F800000#32)

theorem onesH_apply (hone : (⟨0, ![]⟩ : Shape).BroadcastsInDim ⟨2, ![M, 2]⟩ ![]) (i : (⟨2, ![M, 2]⟩ : Shape).Idx) :
    onesH hone i = oneW :=
  broadcastInDim_scalar_apply hone _ i

/-- Host program: the gates with the logistic function spelt 1 / (1 + e^(−x)). -/
theorem gateH_apply (hone : (⟨0, ![]⟩ : Shape).BroadcastsInDim ⟨2, ![M, 2]⟩ ![]) :
    addf
      (mulf
        (subf (onesH hone)
          (Host.divf (onesH hone) (addf (onesH hone) (Host.exp (Host.negf
            (addf (extractStridedSlice ⟨2, ![M, 2]⟩ ![0, 2] gi s2) (extractStridedSlice ⟨2, ![M, 2]⟩ ![0, 2] gh s2)))))))
        (Host.tanh (addf (extractStridedSlice ⟨2, ![M, 2]⟩ ![0, 4] gi s4)
          (mulf
            (Host.divf (onesH hone) (addf (onesH hone) (Host.exp (Host.negf
              (addf (extractStridedSlice ⟨2, ![M, 2]⟩ ![0, 0] gi s0) (extractStridedSlice ⟨2, ![M, 2]⟩ ![0, 0] gh s0))))))
            (extractStridedSlice ⟨2, ![M, 2]⟩ ![0, 4] gh s4)))))
      (mulf
        (Host.divf (onesH hone) (addf (onesH hone) (Host.exp (Host.negf
          (addf (extractStridedSlice ⟨2, ![M, 2]⟩ ![0, 2] gi s2) (extractStridedSlice ⟨2, ![M, 2]⟩ ![0, 2] gh s2))))))
        h)
      (ix2 p c)
      = gate (fun j => gi (ix2 p j)) (fun j => gh (ix2 p j)) (h (ix2 p c)) c := by
  unfold gate
  show (onesH hone (ix2 p c) - Ideal.div (onesH hone (ix2 p c)) (onesH hone (ix2 p c) + Ideal.exp (-(extractStridedSlice ⟨2, ![M, 2]⟩ ![0, 2] gi s2 (ix2 p c) + extractStridedSlice ⟨2, ![M, 2]⟩ ![0, 2] gh s2 (ix2 p c)))))
        * Ideal.tanh (extractStridedSlice ⟨2, ![M, 2]⟩ ![0, 4] gi s4 (ix2 p c)
            + Ideal.div (onesH hone (ix2 p c)) (onesH hone (ix2 p c) + Ideal.exp (-(extractStridedSlice ⟨2, ![M, 2]⟩ ![0, 0] gi s0 (ix2 p c) + extractStridedSlice ⟨2, ![M, 2]⟩ ![0, 0] gh s0 (ix2 p c))))
              * extractStridedSlice ⟨2, ![M, 2]⟩ ![0, 4] gh s4 (ix2 p c))
      + Ideal.div (onesH hone (ix2 p c)) (onesH hone (ix2 p c) + Ideal.exp (-(extractStridedSlice ⟨2, ![M, 2]⟩ ![0, 2] gi s2 (ix2 p c) + extractStridedSlice ⟨2, ![M, 2]⟩ ![0, 2] gh s2 (ix2 p c))))
        * h (ix2 p c) = _
  rw [onesH_apply hone (ix2 p c), Cert.Logistic.logistic_spelt, Cert.Logistic.logistic_spelt,
    cut_r s0 p c gi, cut_r s0 p c gh, cut_z s2 p c gi, cut_z s2 p c gh, cut_n s4 p c gi, cut_n s4 p c gh]

end gates

/-! ## A whole cell on arrays of rows -/

section cells
variable (D : DotDims ⟨2, ![M, 2]⟩ ⟨2, ![2, 6]⟩ ⟨2, ![M, 6]⟩) (prec : Option ContractPrecision)
  (x h : FVec Ideal ⟨2, ![M, 2]⟩ .f32) (wi wh : FVec Ideal ⟨2, ![6, 2]⟩ .f32)
  (ht : (⟨2, ![6, 2]⟩ : Shape).Transposes [1, 0] ⟨2, ![2, 6]⟩)
  (s0 : (⟨2, ![M, 6]⟩ : Shape).Slices ![0, 0] ⟨2, ![M, 2]⟩)
  (s2 : (⟨2, ![M, 6]⟩ : Shape).Slices ![0, 2] ⟨2, ![M, 2]⟩)
  (s4 : (⟨2, ![M, 6]⟩ : Shape).Slices ![0, 4] ⟨2, ![M, 2]⟩) (p : Fin M) (c : Fin 2)

/-- The kernel body's input-gate or hidden-gate array. -/
abbrev gatesK (v : FVec Ideal ⟨2, ![M, 2]⟩ .f32) (w : FVec Ideal ⟨2, ![6, 2]⟩ .f32) (b : FVec Ideal ⟨2, ![1, 6]⟩ .f32)
    (hb : (⟨2, ![1, 6]⟩ : Shape).Broadcasts ⟨2, ![M, 6]⟩) : FVec Ideal ⟨2, ![M, 6]⟩ .f32 :=
  addf (matmul D prec v (transpose ⟨2, ![2, 6]⟩ [1, 0] w ht) (constant ⟨2, ![M, 6]⟩ .f32 0x00000000#32))
    (broadcastTo ⟨2, ![M, 6]⟩ b hb)

/-- One cell as a kernel body spells it, at (p, c): the cell of row p of the input and of the previous state. -/
theorem cellK_apply (hD : D = DotDims.plain M 2 6) (bi bh : FVec Ideal ⟨2, ![1, 6]⟩ .f32)
    (hb : (⟨2, ![1, 6]⟩ : Shape).Broadcasts ⟨2, ![M, 6]⟩) :
    addf
      (mulf
        (subf (broadcast ⟨2, ![M, 2]⟩ (Scalar.ofBits (F := Ideal) .f32 0x3F800000#32))
          (logistic (addf (extractStridedSlice ⟨2, ![M, 2]⟩ ![0, 2] (gatesK D prec ht x wi bi hb) s2)
            (extractStridedSlice ⟨2, ![M, 2]⟩ ![0, 2] (gatesK D prec ht h wh bh hb) s2))))
        (tanh (addf (extractStridedSlice ⟨2, ![M, 2]⟩ ![0, 4] (gatesK D prec ht x wi bi hb) s4)
          (mulf (logistic (addf (extractStridedSlice ⟨2, ![M, 2]⟩ ![0, 0] (gatesK D prec ht x wi bi hb) s0)
              (extractStridedSlice ⟨2, ![M, 2]⟩ ![0, 0] (gatesK D prec ht h wh bh hb) s0)))
            (extractStridedSlice ⟨2, ![M, 2]⟩ ![0, 4] (gatesK D prec ht h wh bh hb) s4)))))
      (mulf (logistic (addf (extractStridedSlice ⟨2, ![M, 2]⟩ ![0, 2] (gatesK D prec ht x wi bi hb) s2)
          (extractStridedSlice ⟨2, ![M, 2]⟩ ![0, 2] (gatesK D prec ht h wh bh hb) s2))) h)
      (ix2 p c)
      = cell (fun j k => wi (ix2 j k)) (fun j k => wh (ix2 j k)) (fun j => bi (ix2 (0 : Fin 1) j)) (fun j => bh (ix2 (0 : Fin 1) j))
          (fun k => x (ix2 p k)) (fun k => h (ix2 p k)) c := by
  refine (gateK_apply _ _ h s0 s2 s4 p c).trans ?_
  unfold cell
  exact congrArg₂ (fun a b => gate a b (h (ix2 p c)) c)
    (funext fun j => denseK_apply D hD prec x wi ht bi hb p j) (funext fun j => denseK_apply D hD prec h wh ht bh hb p j)

/-- The host's input-gate or hidden-gate array. -/
abbrev gatesH (v : FVec Ideal ⟨2, ![M, 2]⟩ .f32) (w : FVec Ideal ⟨2, ![6, 2]⟩ .f32) (b : FVec Ideal ⟨1, ![6]⟩ .f32)
    (h1 : (⟨1, ![6]⟩ : Shape).BroadcastsInDim ⟨2, ![1, 6]⟩ ![1])
    (h2 : (⟨2, ![1, 6]⟩ : Shape).BroadcastsInDim ⟨2, ![M, 6]⟩ ![0, 1]) : FVec Ideal ⟨2, ![M, 6]⟩ .f32 :=
  addf (Host.dotGeneral D prec v (transpose ⟨2, ![2, 6]⟩ [1, 0] w ht))
    (broadcastInDim ⟨2, ![M, 6]⟩ ![0, 1] h2 (broadcastInDim ⟨2, ![1, 6]⟩ ![1] h1 b))

/-- One cell as a host program spells it, from its two gate arrays, at (p, c). -/
theorem cellH_apply (hD : D = DotDims.plain M 2 6) (bi bh : FVec Ideal ⟨1, ![6]⟩ .f32)
    (h1 : (⟨1, ![6]⟩ : Shape).BroadcastsInDim ⟨2, ![1, 6]⟩ ![1])
    (h2 : (⟨2, ![1, 6]⟩ : Shape).BroadcastsInDim ⟨2, ![M, 6]⟩ ![0, 1])
    (hone : (⟨0, ![]⟩ : Shape).BroadcastsInDim ⟨2, ![M, 2]⟩ ![]) :
    addf
      (mulf
        (subf (onesH hone)
          (Host.divf (onesH hone) (addf (onesH hone) (Host.exp (Host.negf
            (addf (extractStridedSlice ⟨2, ![M, 2]⟩ ![0, 2] (gatesH D prec ht x wi bi h1 h2) s2)
              (extractStridedSlice ⟨2, ![M, 2]⟩ ![0, 2] (gatesH D prec ht h wh bh h1 h2) s2)))))))
        (Host.tanh (addf (extractStridedSlice ⟨2, ![M, 2]⟩ ![0, 4] (gatesH D prec ht x wi bi h1 h2) s4)
          (mulf
            (Host.divf (onesH hone) (addf (onesH hone) (Host.exp (Host.negf
              (addf (extractStridedSlice ⟨2, ![M, 2]⟩ ![0, 0] (gatesH D prec ht x wi bi h1 h2) s0)
                (extractStridedSlice ⟨2, ![M, 2]⟩ ![0, 0] (gatesH D prec ht h wh bh h1 h2) s0))))))
            (extractStridedSlice ⟨2, ![M, 2]⟩ ![0, 4] (gatesH D prec ht h wh bh h1 h2) s4)))))
      (mulf
        (Host.divf (onesH hone) (addf (onesH hone) (Host.exp (Host.negf
          (addf (extractStridedSlice ⟨2, ![M, 2]⟩ ![0, 2] (gatesH D prec ht x wi bi h1 h2) s2)
            (extractStridedSlice ⟨2, ![M, 2]⟩ ![0, 2] (gatesH D prec ht h wh bh h1 h2) s2))))))
        h)
      (ix2 p c)
      = cell (fun j k => wi (ix2 j k)) (fun j k => wh (ix2 j k)) (fun j => bi (ix1 j)) (fun j => bh (ix1 j))
          (fun k => x (ix2 p k)) (fun k => h (ix2 p k)) c := by
  refine (gateH_apply _ _ h s0 s2 s4 p c hone).trans ?_
  unfold cell
  exact congrArg₂ (fun a b => gate a b (h (ix2 p c)) c)
    (funext fun j => denseH_apply D hD prec x wi ht bi h1 h2 p j) (funext fun j => denseH_apply D hD prec h wh ht bh h1 h2 p j)

end cells

/-! ## Arrays set side by side, and columns cut out -/

section layout
variable {α : Type}

/-- Two [M, 1] columns set side by side: at (p, k) the first column's entry of row p for k = 0, the second's otherwise. -/
theorem pair_cols_apply (a b : (⟨2, ![M, 1]⟩ : Shape).Idx → α)
    (hc : Shape.Concatenates [(⟨2, ![M, 1]⟩ : Shape), ⟨2, ![M, 1]⟩] ⟨2, ![M, 2]⟩ 1) (p : Fin M) (k : Fin 2) :
    concatenate ⟨2, ![M, 2]⟩ 1 [⟨⟨2, ![M, 1]⟩, a⟩, ⟨⟨2, ![M, 1]⟩, b⟩] hc (ix2 p k)
      = if k.val = 0 then a (ix2 p (0 : Fin 1)) else b (ix2 p (0 : Fin 1)) := by
  split
  · next hk =>
    refine concatenate_pair_apply_left 1 a b hc (ix2 p k) rfl (ix2 p (0 : Fin 1)) fun bx => ?_
    match bx with
    | ⟨0, _⟩ => rfl
    | ⟨1, _⟩ => exact hk.symm
  · next hk =>
    refine concatenate_pair_apply_right 1 a b hc (ix2 p k) rfl rfl (ix2 p (0 : Fin 1)) (fun bx hne => ?_) ?_
    · match bx with
      | ⟨0, _⟩ => rfl
      | ⟨1, _⟩ => exact absurd rfl hne
    · show 0 + 1 = k.val
      have := k.isLt; omega

/-- An [M, 4] array and an [M, 2] array set side by side: at (p, q) the first for q < 4, the second at q − 4 otherwise. -/
theorem cols42_apply (a : (⟨2, ![M, 4]⟩ : Shape).Idx → α) (b : (⟨2, ![M, 2]⟩ : Shape).Idx → α)
    (hc : Shape.Concatenates [(⟨2, ![M, 4]⟩ : Shape), ⟨2, ![M, 2]⟩] ⟨2, ![M, 6]⟩ 1) (p : Fin M) (q : Fin 6) :
    concatenate ⟨2, ![M, 6]⟩ 1 [⟨⟨2, ![M, 4]⟩, a⟩, ⟨⟨2, ![M, 2]⟩, b⟩] hc (ix2 p q)
      = if hq : q.val < 4 then a (ix2 p ⟨q.val, hq⟩) else b (ix2 p ⟨q.val - 4, by have := q.isLt; omega⟩) := by
  split
  · next hq =>
    refine concatenate_pair_apply_left 1 a b hc (ix2 p q) rfl (ix2 p ⟨q.val, hq⟩) fun bx => ?_
    match bx with
    | ⟨0, _⟩ => rfl
    | ⟨1, _⟩ => rfl
  · next hq =>
    refine concatenate_pair_apply_right 1 a b hc (ix2 p q) rfl rfl (ix2 p ⟨q.val - 4, by have := q.isLt; omega⟩) (fun bx hne => ?_) ?_
    · match bx with
      | ⟨0, _⟩ => rfl
      | ⟨1, _⟩ => exact absurd rfl hne
    · show q.val - 4 + 4 = q.val
      omega

/-- A column cut out of a band of columns of an array: column o of the band that starts at column b is column b + o. -/
theorem col_of_band_apply {n w : ℕ} (b o : ℕ) (X : (⟨2, ![M, n]⟩ : Shape).Idx → α)
    (hb : (⟨2, ![M, n]⟩ : Shape).Slices ![0, b] ⟨2, ![M, w]⟩) (ho : (⟨2, ![M, w]⟩ : Shape).Slices ![0, o] ⟨2, ![M, 1]⟩)
    (p : Fin M) (u : Fin 1) (j : Fin w) (hj : j.val = o) (k : Fin n) (hk : k.val = b + o) :
    extractStridedSlice ⟨2, ![M, 1]⟩ ![0, o] (extractStridedSlice ⟨2, ![M, w]⟩ ![0, b] X hb) ho (ix2 p u) = X (ix2 p k) :=
  (slice2_axis1_apply o _ ho p u j (by have := u.isLt; omega)).trans (slice2_axis1_apply b X hb p j k (by omega))

/-- A band of columns with a unit middle axis put in by the host reads, at (p, u, j), the band at (p, j). -/
theorem band_mid_apply {n : ℕ} (h : (⟨2, ![M, n]⟩ : Shape).BroadcastsInDim ⟨3, ![M, 1, n]⟩ ![0, 2])
    (X : (⟨2, ![M, n]⟩ : Shape).Idx → α) (p : Fin M) (u : Fin 1) (j : Fin n) :
    broadcastInDim ⟨3, ![M, 1, n]⟩ ![0, 2] h X (ix3 p u j) = X (ix2 p j) := by
  refine broadcastInDim_apply ![0, 2] h X (ix3 p u j) (ix2 p j) fun ax => ?_
  match ax with
  | ⟨0, _⟩ =>
    show p.val = if M = 1 then 0 else p.val
    split
    · have := p.isLt; omega
    · rfl
  | ⟨1, _⟩ =>
    show j.val = if n = 1 then 0 else j.val
    split
    · have := j.isLt; omega
    · rfl

/-- Two [M, 1, n] arrays stacked along the middle axis: at (p, k, j) the first for k = 0, the second otherwise. -/
theorem stack_apply {n : ℕ} (a b : (⟨3, ![M, 1, n]⟩ : Shape).Idx → α)
    (hc : Shape.Concatenates [(⟨3, ![M, 1, n]⟩ : Shape), ⟨3, ![M, 1, n]⟩] ⟨3, ![M, 2, n]⟩ 1) (p : Fin M) (k : Fin 2) (j : Fin n) :
    concatenate ⟨3, ![M, 2, n]⟩ 1 [⟨⟨3, ![M, 1, n]⟩, a⟩, ⟨⟨3, ![M, 1, n]⟩, b⟩] hc (ix3 p k j)
      = if k.val = 0 then a (ix3 p (0 : Fin 1) j) else b (ix3 p (0 : Fin 1) j) := by
  split
  · next hk =>
    refine concatenate_pair_apply_left 1 a b hc (ix3 p k j) rfl (ix3 p (0 : Fin 1) j) fun bx => ?_
    match bx with
    | ⟨0, _⟩ => rfl
    | ⟨1, _⟩ => exact hk.symm
    | ⟨2, _⟩ => rfl
  · next hk =>
    refine concatenate_pair_apply_right 1 a b hc (ix3 p k j) rfl rfl (ix3 p (0 : Fin 1) j) (fun bx hne => ?_) ?_
    · match bx with
      | ⟨0, _⟩ => rfl
      | ⟨1, _⟩ => exact absurd rfl hne
      | ⟨2, _⟩ => rfl
    · show 0 + 1 = k.val
      have := k.isLt; omega

/-- One position o of the last axis of an [M, 2, n] array cut out and its unit axis dropped: at (p, k) the array at (p, k, o). -/
theorem cut_last_apply {n : ℕ} (o : ℕ) (J : (⟨3, ![M, 2, n]⟩ : Shape).Idx → α)
    (hs : (⟨3, ![M, 2, n]⟩ : Shape).Slices ![0, 0, o] ⟨3, ![M, 2, 1]⟩)
    (hc : (⟨3, ![M, 2, 1]⟩ : Shape).ShapeCasts ⟨2, ![M, 2]⟩) (p : Fin M) (k : Fin 2) (j : Fin n) (hj : j.val = o) :
    shapeCast ⟨2, ![M, 2]⟩ (extractStridedSlice ⟨3, ![M, 2, 1]⟩ ![0, 0, o] J hs) hc (ix2 p k) = J (ix3 p k j) := by
  refine (shapeCast_apply _ hc (ix2 p k) (ix3 p k (0 : Fin 1)) ?_).trans ?_
  · rw [Shape.rowMajor_val_three, Shape.rowMajor_val_two]
    show (p.val * 2 + k.val) * 1 + 0 = p.val * 2 + k.val
    omega
  · refine extractStridedSlice_apply _ J hs _ (ix3 p k j) fun ax => ?_
    match ax with
    | ⟨0, _⟩ => exact (Nat.zero_add _).symm
    | ⟨1, _⟩ => exact (Nat.zero_add _).symm
    | ⟨2, _⟩ => exact hj.trans (Nat.add_zero _).symm

/-- Seven [M, 1] columns set side by side: at (p, i) column i's entry of row p. -/
theorem seven_cols_apply (a0 a1 a2 a3 a4 a5 a6 : (⟨2, ![M, 1]⟩ : Shape).Idx → α)
    (hc : Shape.Concatenates [(⟨2, ![M, 1]⟩ : Shape), ⟨2, ![M, 1]⟩, ⟨2, ![M, 1]⟩, ⟨2, ![M, 1]⟩, ⟨2, ![M, 1]⟩, ⟨2, ![M, 1]⟩, ⟨2, ![M, 1]⟩] ⟨2, ![M, 7]⟩ 1)
    (p : Fin M) (i : Fin 7) :
    concatenate ⟨2, ![M, 7]⟩ 1 [⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] hc (ix2 p i)
      = (![a0, a1, a2, a3, a4, a5, a6] : Fin 7 → (⟨2, ![M, 1]⟩ : Shape).Idx → α) i (ix2 p (0 : Fin 1)) := by
  have key : ∀ (n : ℕ) (hn : n < 7) (x : (⟨2, ![M, 1]⟩ : Shape).Idx → α),
      ([⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] : List ((s : Shape) × (s.Idx → α)))[n]'hn = ⟨⟨2, ![M, 1]⟩, x⟩ →
      i.val = n →
      concatenate ⟨2, ![M, 7]⟩ 1 [⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] hc (ix2 p i) = x (ix2 p (0 : Fin 1)) := by
    intro n hn x hx hi
    refine concatenate_apply_piece 1
      ([⟨⟨2, ![M, 1]⟩, a0⟩, ⟨⟨2, ![M, 1]⟩, a1⟩, ⟨⟨2, ![M, 1]⟩, a2⟩, ⟨⟨2, ![M, 1]⟩, a3⟩, ⟨⟨2, ![M, 1]⟩, a4⟩, ⟨⟨2, ![M, 1]⟩, a5⟩, ⟨⟨2, ![M, 1]⟩, a6⟩] : List ((s : Shape) × (s.Idx → α)))
      hc (ix2 p i) n hn ⟨2, ![M, 1]⟩ x hx rfl n ?_ (ix2 p (0 : Fin 1)) (fun bx hne => ?_) ?_
    · interval_cases n <;> rfl
    · match bx with
      | ⟨0, _⟩ => rfl
      | ⟨1, _⟩ => exact absurd rfl hne
    · show n + 0 = i.val
      omega
  match i with
  | ⟨0, _⟩ => exact key 0 (by omega) a0 rfl rfl
  | ⟨1, _⟩ => exact key 1 (by omega) a1 rfl rfl
  | ⟨2, _⟩ => exact key 2 (by omega) a2 rfl rfl
  | ⟨3, _⟩ => exact key 3 (by omega) a3 rfl rfl
  | ⟨4, _⟩ => exact key 4 (by omega) a4 rfl rfl
  | ⟨5, _⟩ => exact key 5 (by omega) a5 rfl rfl
  | ⟨6, _⟩ => exact key 6 (by omega) a6 rfl rfl

end layout

end Cert.GruLayers

end
-- ==== Proof.Spec.lean ====
/-
  The function both programs compute, one row at a time.

  A row of the input holds four observations (columns 0 to 3), seven joint positions (columns 4 to 10) and seven joint
  velocities (columns 11 to 17). An upward chain of seven GRU cells, started from the zero state, reads the joints from
  the last to the first, each cell taking the pair (position, velocity) of its joint. An affine map fuses the four
  observations with the last upward state into the first downward state. A downward chain of seven cells then takes the
  upward states in the order they were produced, and after each cell an affine map to one number gives that joint's
  output. The result row is the seven outputs.
-/
import proofs.«130514_j56839597195499_2_alg».proof.Proof.LibGruLayers

noncomputable section

namespace Cert.GruNet

open Idealize.ShloMosaic Idealize.ShloMosaic.ValueIdx Cert.GruLayers

/-- The network's parameters, as functions of their positions. -/
@[ext] structure Params where
  wiu : Fin 6 → Fin 2 → EReal
  whu : Fin 6 → Fin 2 → EReal
  biu : Fin 6 → EReal
  bhu : Fin 6 → EReal
  wobs : Fin 2 → Fin 6 → EReal
  bobs : Fin 2 → EReal
  wid : Fin 6 → Fin 2 → EReal
  whd : Fin 6 → Fin 2 → EReal
  bid : Fin 6 → EReal
  bhd : Fin 6 → EReal
  wout : Fin 1 → Fin 2 → EReal
  bout : Fin 1 → EReal

/-- The single-precision zero word, as the extended real it denotes. -/
abbrev zeroW : EReal := Ideal.ofBits .f32 0x00000000#32

/-- Column of joint i's position. -/
def jc (i : Fin 7) : Fin 18 := ⟨4 + i.val, by have := i.isLt; omega⟩
/-- Column of joint i's velocity. -/
def jdc (i : Fin 7) : Fin 18 := ⟨11 + i.val, by have := i.isLt; omega⟩

/-- Joint i's input pair out of a row. -/
def xin (R : Fin 18 → EReal) (i : Fin 7) (k : Fin 2) : EReal := if k.val = 0 then R (jc i) else R (jdc i)

variable (P : Params) (R : Fin 18 → EReal)

/-- One upward cell. -/
abbrev upCell (x h : Fin 2 → EReal) : Fin 2 → EReal := cell P.wiu P.whu P.biu P.bhu x h
/-- One downward cell. -/
abbrev dnCell (x h : Fin 2 → EReal) : Fin 2 → EReal := cell P.wid P.whd P.bid P.bhd x h

def up1 : Fin 2 → EReal := upCell P (xin R 6) (fun _ => zeroW)
def up2 : Fin 2 → EReal := upCell P (xin R 5) (up1 P R)
def up3 : Fin 2 → EReal := upCell P (xin R 4) (up2 P R)
def up4 : Fin 2 → EReal := upCell P (xin R 3) (up3 P R)
def up5 : Fin 2 → EReal := upCell P (xin R 2) (up4 P R)
def up6 : Fin 2 → EReal := upCell P (xin R 1) (up5 P R)
def up7 : Fin 2 → EReal := upCell P (xin R 0) (up6 P R)

/-- The four observations followed by the last upward state. -/
def fused (q : Fin 6) : EReal :=
  if hq : q.val < 4 then R ⟨q.val, by omega⟩ else up7 P R ⟨q.val - 4, by have := q.isLt; omega⟩

def dn0 : Fin 2 → EReal := lin P.wobs P.bobs (fused P R)
def dn1 : Fin 2 → EReal := dnCell P (up1 P R) (dn0 P R)
def dn2 : Fin 2 → EReal := dnCell P (up2 P R) (dn1 P R)
def dn3 : Fin 2 → EReal := dnCell P (up3 P R) (dn2 P R)
def dn4 : Fin 2 → EReal := dnCell P (up4 P R) (dn3 P R)
def dn5 : Fin 2 → EReal := dnCell P (up5 P R) (dn4 P R)
def dn6 : Fin 2 → EReal := dnCell P (up6 P R) (dn5 P R)
def dn7 : Fin 2 → EReal := dnCell P (up7 P R) (dn6 P R)

/-- A joint's output from a downward state. -/
def act (h : Fin 2 → EReal) : EReal := lin P.wout P.bout h 0

/-- The result row. -/
def out (i : Fin 7) : EReal :=
  (![act P (dn1 P R), act P (dn2 P R), act P (dn3 P R), act P (dn4 P R), act P (dn5 P R), act P (dn6 P R), act P (dn7 P R)] : Fin 7 → EReal) i

/-! ## The whole arrays -/

/-- The parameters read off the twelve parameter arrays: the weight matrices entry by entry, each bias a vector. -/
def paramsOf (a1 a2 : (⟨2, ![6, 2]⟩ : Shape).Idx → EReal) (a3 a4 : (⟨1, ![6]⟩ : Shape).Idx → EReal)
    (a5 : (⟨2, ![2, 6]⟩ : Shape).Idx → EReal) (a6 : (⟨1, ![2]⟩ : Shape).Idx → EReal)
    (a7 a8 : (⟨2, ![6, 2]⟩ : Shape).Idx → EReal) (a9 a10 : (⟨1, ![6]⟩ : Shape).Idx → EReal)
    (a11 : (⟨2, ![1, 2]⟩ : Shape).Idx → EReal) (a12 : (⟨1, ![1]⟩ : Shape).Idx → EReal) : Params where
  wiu j k := a1 (ix2 j k)
  whu j k := a2 (ix2 j k)
  biu j := a3 (ix1 j)
  bhu j := a4 (ix1 j)
  wobs j k := a5 (ix2 j k)
  bobs j := a6 (ix1 j)
  wid j k := a7 (ix2 j k)
  whd j k := a8 (ix2 j k)
  bid j := a9 (ix1 j)
  bhd j := a10 (ix1 j)
  wout j k := a11 (ix2 j k)
  bout j := a12 (ix1 j)

/-- The result array: row p is the network's result row for row p of the input. -/
def G (Q : Params) (X : (⟨2, ![2097152, 18]⟩ : Shape).Idx → EReal) : (⟨2, ![2097152, 7]⟩ : Shape).Idx → EReal :=
  fun j => out Q (fun q => X (ix2 (j 0) q)) (j 1)

end Cert.GruNet

end
-- ==== Proof.KernelRows.lean ====
/-
  The kernel body on one block of 1024 rows, read one entry at a time.

  The body's value is printed as a tree of pure terms in which a hidden state that several later operations use is
  written out again at every use. The definitions below name each hidden state (and each partial piece of a cell
  that the printed text cuts off from the rest of its cell) once, so that the body's result is one term over these
  names, and every named state is then read at (p, c): it is the corresponding state of the network applied to row p of
  the block, with the parameters read off the twelve parameter blocks. Row p of the result block is therefore the
  network's result row for row p of the input block: every entry depends on its own row only.
-/
import proofs.«130514_j56839597195499_2_alg».proof.Proof.Gen.KernelIdeal.Frame
import proofs.«130514_j56839597195499_2_alg».proof.Proof.Spec

set_option maxRecDepth 16384

noncomputable section

namespace Cert.KernelIdeal.Rows

open Cert.KernelIdeal Cert.KernelIdeal.Gen Idealize.ShloMosaic Idealize.ShloMosaic.ValueIdx Cert.GruLayers Cert.GruNet

/-- The thirteen input blocks the body loads at one grid point: 1024 rows of the input, and the twelve parameter
    arrays whole (the biases as one-row matrices). -/
structure Blk where
  x0 : Vec Ideal S1024x18 .f32
  x1 : Vec Ideal S6x2 .f32
  x2 : Vec Ideal S6x2 .f32
  x3 : Vec Ideal S1x6 .f32
  x4 : Vec Ideal S1x6 .f32
  x5 : Vec Ideal S2x6 .f32
  x6 : Vec Ideal S1x2 .f32
  x7 : Vec Ideal S6x2 .f32
  x8 : Vec Ideal S6x2 .f32
  x9 : Vec Ideal S1x6 .f32
  x10 : Vec Ideal S1x6 .f32
  x11 : Vec Ideal S1x2 .f32
  x12 : Vec Ideal S1x1 .f32

variable (B : Blk)

/-! ## The body's values, each named once -/

/-- The observations, the joint positions and the joint velocities of the block's rows. -/
abbrev v1 : FVec Ideal S1024x4 .f32 := k0_pay2 B.x0
abbrev v2 : FVec Ideal S1024x7 .f32 := k0_pay3 B.x0
abbrev v3 : FVec Ideal S1024x7 .f32 := k0_pay4 B.x0
/-- The six bias rows as the body recasts them (each to its own shape). -/
abbrev b7 : FVec Ideal S1x6 .f32 := k0_pay5 B.x3
abbrev b9 : FVec Ideal S1x6 .f32 := k0_pay6 B.x4
abbrev b12 : FVec Ideal S1x2 .f32 := k0_pay7 B.x6
abbrev b16 : FVec Ideal S1x6 .f32 := k0_pay8 B.x9
abbrev b18 : FVec Ideal S1x6 .f32 := k0_pay9 B.x10
abbrev b21 : FVec Ideal S1x1 .f32 := k0_pay10 B.x12
/-- The zero state the upward chain starts from, and a zero accumulator that crosses a cut of the printed text. -/
abbrev v22 : FVec Ideal S1024x2 .f32 := k0_pay11
abbrev c31 : FVec Ideal S1024x6 .f32 := constant S1024x6 .f32 0x00000000#32

/-- The first upward cell's input gates and transposed hidden weights. -/
def v29 : FVec Ideal S1024x6 .f32 := k0_pay12 B.x0 B.x1 B.x3
def v30 : FVec Ideal S2x6 .f32 := k0_pay13 B.x2
/-- The upward states after one to five cells, with the pieces the printed text cuts off on the way. -/
def v51 : FVec Ideal S1024x2 .f32 := k0_pay14 (b9 B) v22 (v29 B) (v30 B)
def v80 : FVec Ideal S1024x2 .f32 := k0_pay15 (v2 B) (v3 B) B.x1 B.x2 (b7 B) (b9 B) v22 (v29 B) (v30 B)
def v83 : FVec Ideal S1024x2 .f32 := k0_pay16 (v2 B) (v3 B)
def v84 : FVec Ideal S2x6 .f32 := k0_pay17 B.x1
def v109 : FVec Ideal S1024x2 .f32 := k0_pay18 B.x2 (b7 B) (b9 B) (v80 B) (v83 B) (v84 B) c31
def v138 : FVec Ideal S1024x2 .f32 := k0_pay19 (v2 B) (v3 B) B.x1 B.x2 (b7 B) (b9 B) (v80 B) (v83 B) (v84 B) c31
def v139 : FVec Ideal S1024x1 .f32 := k0_pay20 (v2 B)
def v167 : FVec Ideal S1024x2 .f32 := k0_pay21 (v3 B) B.x1 B.x2 (b7 B) (b9 B) (v138 B) (v139 B)
/-- The sixth upward cell in four pieces (its update gate, its candidate, one minus the gate, and the state). -/
def v188 : FVec Ideal S1024x2 .f32 := k0_pay24 (v2 B) (v3 B) B.x1 B.x2 (b7 B) (b9 B) (v138 B) (v139 B)
def v191 : FVec Ideal S1024x2 .f32 := k0_pay25 (v2 B) (v3 B) B.x1 B.x2 (b7 B) (b9 B) (v138 B) (v139 B)
def v193 : FVec Ideal S1024x2 .f32 := k0_pay26 (v2 B) (v3 B) B.x1 B.x2 (b7 B) (b9 B) (v138 B) (v139 B)
def v196 : FVec Ideal S1024x2 .f32 := k0_pay27 (v167 B) (v188 B) (v191 B) (v193 B)
/-- The last upward state and the first downward state (the observations fused in). -/
def v225 : FVec Ideal S1024x2 .f32 := k0_pay28 (v2 B) (v3 B) B.x1 B.x2 (b7 B) (b9 B) (v167 B) (v188 B) (v191 B) (v193 B)
def v230 : FVec Ideal S1024x2 .f32 := k0_pay29 (v1 B) (v2 B) (v3 B) B.x1 B.x2 (b7 B) (b9 B) B.x5 (b12 B) (v167 B) (v188 B) (v191 B) (v193 B)
/-- The first downward cell in pieces, its state and its output. -/
def v241 : FVec Ideal S1024x2 .f32 := k0_pay32 B.x7 (b16 B) (v51 B)
def v244 : FVec Ideal S1024x2 .f32 := k0_pay33 (v1 B) (v2 B) (v3 B) B.x1 B.x2 (b7 B) (b9 B) B.x5 (b12 B) B.x8 (b18 B) (v167 B) (v188 B) (v191 B) (v193 B)
def v246 : FVec Ideal S1024x2 .f32 := k0_pay34 (v1 B) (v2 B) (v3 B) B.x1 B.x2 (b7 B) (b9 B) B.x5 (b12 B) B.x7 B.x8 (b16 B) (b18 B) (v51 B) (v167 B) (v188 B) (v191 B) (v193 B)
def v247 : FVec Ideal S1024x2 .f32 := k0_pay35 (v1 B) (v2 B) (v3 B) B.x1 B.x2 (b7 B) (b9 B) B.x5 (b12 B) B.x7 B.x8 (b16 B) (b18 B) (v51 B) (v167 B) (v188 B) (v191 B) (v193 B)
def h1 : FVec Ideal S1024x2 .f32 := k0_pay36 (v230 B) (v241 B) (v244 B) (v246 B) (v247 B)
def v260 : FVec Ideal S1024x1 .f32 := k0_pay37 B.x11 (b21 B) (v230 B) (v241 B) (v244 B) (v246 B) (v247 B)
/-- The second downward state and output; the third cell's gates, state and output. -/
def v286 : FVec Ideal S1024x2 .f32 := k0_pay38 B.x7 B.x8 (b16 B) (b18 B) (v80 B) (v230 B) (v241 B) (v244 B) (v246 B) (v247 B)
def v290 : FVec Ideal S1024x1 .f32 := k0_pay39 B.x7 B.x8 (b16 B) (b18 B) B.x11 (b21 B) (v80 B) (v230 B) (v241 B) (v244 B) (v246 B) (v247 B)
def v294 : FVec Ideal S1024x6 .f32 := k0_pay40 B.x7 (b16 B) (v109 B)
def v298 : FVec Ideal S1024x6 .f32 := k0_pay41 B.x7 B.x8 (b16 B) (b18 B) (v80 B) (v230 B) (v241 B) (v244 B) (v246 B) (v247 B)
def v299 : FVec Ideal S1024x2 .f32 := k0_pay42 B.x7 (b16 B) (v109 B)
def h3 : FVec Ideal S1024x2 .f32 := k0_pay43 (v286 B) (v294 B) (v298 B) (v299 B)
def v320 : FVec Ideal S1024x1 .f32 := k0_pay44 B.x11 (b21 B) (v286 B) (v294 B) (v298 B) (v299 B)
/-- The fourth downward state and output; the fifth cell's product, state and output; the sixth state. -/
def v346 : FVec Ideal S1024x2 .f32 := k0_pay45 B.x7 B.x8 (b16 B) (b18 B) (v138 B) (v286 B) (v294 B) (v298 B) (v299 B)
def v350 : FVec Ideal S1024x1 .f32 := k0_pay46 B.x7 B.x8 (b16 B) (b18 B) B.x11 (b21 B) (v138 B) (v286 B) (v294 B) (v298 B) (v299 B)
def v352 : FVec Ideal S1024x6 .f32 := k0_pay47 B.x7 (v167 B)
def h5 : FVec Ideal S1024x2 .f32 := k0_pay48 B.x8 (b16 B) (b18 B) (v346 B) (v352 B)
def v380 : FVec Ideal S1024x1 .f32 := k0_pay49 B.x8 (b16 B) (b18 B) B.x11 (b21 B) (v346 B) (v352 B)
def v406 : FVec Ideal S1024x2 .f32 := k0_pay50 B.x7 B.x8 (b16 B) (b18 B) (v196 B) (v346 B) (v352 B)
/-- The block the body stores. -/
def kout : FVec Ideal S1024x7 .f32 :=
  k0_pay1 B.x7 B.x8 (b16 B) (b18 B) B.x11 (b21 B) (v225 B) (v260 B) (v290 B) (v320 B) (v350 B) (v380 B) (v406 B)

/-! ## The parameters and a row, read off the blocks -/

/-- The network's parameters as the body sees them. -/
def PK : Params where
  wiu j k := B.x1 (ix2 j k)
  whu j k := B.x2 (ix2 j k)
  biu j := b7 B (ix2 (0 : Fin 1) j)
  bhu j := b9 B (ix2 (0 : Fin 1) j)
  wobs j k := B.x5 (ix2 j k)
  bobs j := b12 B (ix2 (0 : Fin 1) j)
  wid j k := B.x7 (ix2 j k)
  whd j k := B.x8 (ix2 j k)
  bid j := b16 B (ix2 (0 : Fin 1) j)
  bhd j := b18 B (ix2 (0 : Fin 1) j)
  wout j k := B.x11 (ix2 j k)
  bout j := b21 B (ix2 (0 : Fin 1) j)

variable (p : Fin 1024)

/-- Row p of the input block. -/
abbrev row : Fin 18 → EReal := fun q => B.x0 (ix2 p q)

/-- Joint i's (position, velocity) pair as the body assembles it: one column of each band, set side by side. -/
theorem xinK (o : ℕ) (i : Fin 7) (hi : i.val = o) (ho : S1024x7.Slices ![0, o] S1024x1)
    (hc : Shape.Concatenates [S1024x1, S1024x1] S1024x2 1) (k : Fin 2) :
    concatenate S1024x2 1 [⟨S1024x1, extractStridedSlice S1024x1 ![0, o] (v2 B) ho⟩,
        ⟨S1024x1, extractStridedSlice S1024x1 ![0, o] (v3 B) ho⟩] hc (ix2 p k) = xin (row B p) i k := by
  unfold xin
  refine (pair_cols_apply _ _ hc p k).trans ?_
  exact if_congr Iff.rfl
    (col_of_band_apply 4 o B.x0 slices_S1024x18_o0_4_S1024x7 ho p 0 i hi (jc i) (by rw [← hi]; rfl))
    (col_of_band_apply 11 o B.x0 slices_S1024x18_o0_11_S1024x7 ho p 0 i hi (jdc i) (by rw [← hi]; rfl))

/-! ## The upward chain -/

theorem v51_row (c : Fin 2) : v51 B (ix2 p c) = up1 (PK B) (row B p) c := by
  unfold v51 k0_pay14 v29 k0_pay12 v30 k0_pay13
  dsimp only
  refine (cellK_apply _ _ _ _ _ _ _ _ _ _ p c rfl _ _ _).trans ?_
  exact cell_congr (fun k => xinK B p 6 6 rfl _ _ k) (fun _ => rfl) c

theorem v80_row (c : Fin 2) : v80 B (ix2 p c) = up2 (PK B) (row B p) c := by
  unfold v80 k0_pay15
  dsimp only
  refine (cellK_apply _ _ _ _ _ _ _ _ _ _ p c rfl _ _ _).trans ?_
  exact cell_congr (fun k => xinK B p 5 5 rfl _ _ k) (fun k => v51_row B p k) c

theorem v109_row (c : Fin 2) : v109 B (ix2 p c) = up3 (PK B) (row B p) c := by
  unfold v109 k0_pay18 v83 k0_pay16 v84 k0_pay17
  dsimp only
  refine (cellK_apply _ _ _ _ _ _ _ _ _ _ p c rfl _ _ _).trans ?_
  exact cell_congr (fun k => xinK B p 4 4 rfl _ _ k) (fun k => v80_row B p k) c

theorem v138_row (c : Fin 2) : v138 B (ix2 p c) = up4 (PK B) (row B p) c := by
  unfold v138 k0_pay19
  dsimp only
  refine (cellK_apply _ _ _ _ _ _ _ _ _ _ p c rfl _ _ _).trans ?_
  exact cell_congr (fun k => xinK B p 3 3 rfl _ _ k) (fun k => v109_row B p k) c

theorem v167_row (c : Fin 2) : v167 B (ix2 p c) = up5 (PK B) (row B p) c := by
  unfold v167 k0_pay21 v139 k0_pay20
  dsimp only
  refine (cellK_apply _ _ _ _ _ _ _ _ _ _ p c rfl _ _ _).trans ?_
  exact cell_congr (fun k => xinK B p 2 2 rfl _ _ k) (fun k => v138_row B p k) c

theorem v196_row (c : Fin 2) : v196 B (ix2 p c) = up6 (PK B) (row B p) c := by
  unfold v196 k0_pay27 v193 k0_pay26 v188 k0_pay24 v191 k0_pay25 k0_pay22 k0_pay23
  dsimp only
  refine (cellK_apply _ _ _ _ _ _ _ _ _ _ p c rfl _ _ _).trans ?_
  exact cell_congr (fun k => xinK B p 1 1 rfl _ _ k) (fun k => v167_row B p k) c

theorem v225_row (c : Fin 2) : v225 B (ix2 p c) = up7 (PK B) (row B p) c := by
  unfold v225 k0_pay28
  dsimp only
  refine (cellK_apply _ _ _ _ _ _ _ _ _ _ p c rfl _ _ _).trans ?_
  exact cell_congr (fun k => xinK B p 0 0 rfl _ _ k) (fun k => v196_row B p k) c

/-! ## The observations fused in, and the downward chain with its outputs -/

theorem v230_row (c : Fin 2) : v230 B (ix2 p c) = dn0 (PK B) (row B p) c := by
  unfold v230 k0_pay29
  dsimp only
  refine (denseK_apply _ rfl _ _ _ _ _ _ p c).trans ?_
  refine lin_congr (fun q => (cols42_apply _ _ _ p q).trans ?_) c
  unfold fused
  split
  · next hq => exact slice2_axis1_apply 0 B.x0 slices_S1024x18_o0_0_S1024x4 p ⟨q.val, hq⟩ ⟨q.val, by omega⟩ (Nat.zero_add _).symm
  · exact v225_row B p _

theorem h1_row (c : Fin 2) : h1 B (ix2 p c) = dn1 (PK B) (row B p) c := by
  unfold h1 k0_pay36 v241 k0_pay32 v244 k0_pay33 v246 k0_pay34 v247 k0_pay35 k0_pay30 k0_pay31
  dsimp only
  refine (cellK_apply _ _ _ _ _ _ _ _ _ _ p c rfl _ _ _).trans ?_
  exact cell_congr (fun k => v51_row B p k) (fun k => v230_row B p k) c

theorem v260_row : v260 B (ix2 p (0 : Fin 1)) = act (PK B) (dn1 (PK B) (row B p)) := by
  unfold v260 k0_pay37
  dsimp only
  refine (denseK_apply _ rfl _ _ _ _ _ _ p 0).trans ?_
  exact lin_congr (fun k => h1_row B p k) 0

theorem v286_row (c : Fin 2) : v286 B (ix2 p c) = dn2 (PK B) (row B p) c := by
  unfold v286 k0_pay38
  dsimp only
  refine (cellK_apply _ _ _ _ _ _ _ _ _ _ p c rfl _ _ _).trans ?_
  exact cell_congr (fun k => v80_row B p k) (fun k => h1_row B p k) c

theorem v290_row : v290 B (ix2 p (0 : Fin 1)) = act (PK B) (dn2 (PK B) (row B p)) := by
  unfold v290 k0_pay39
  dsimp only
  refine (denseK_apply _ rfl _ _ _ _ _ _ p 0).trans ?_
  exact lin_congr (fun k => v286_row B p k) 0

theorem h3_row (c : Fin 2) : h3 B (ix2 p c) = dn3 (PK B) (row B p) c := by
  unfold h3 k0_pay43 v294 k0_pay40 v298 k0_pay41 v299 k0_pay42
  dsimp only
  refine (cellK_apply _ _ _ _ _ _ _ _ _ _ p c rfl _ _ _).trans ?_
  exact cell_congr (fun k => v109_row B p k) (fun k => v286_row B p k) c

theorem v320_row : v320 B (ix2 p (0 : Fin 1)) = act (PK B) (dn3 (PK B) (row B p)) := by
  unfold v320 k0_pay44
  dsimp only
  refine (denseK_apply _ rfl _ _ _ _ _ _ p 0).trans ?_
  exact lin_congr (fun k => h3_row B p k) 0

theorem v346_row (c : Fin 2) : v346 B (ix2 p c) = dn4 (PK B) (row B p) c := by
  unfold v346 k0_pay45
  dsimp only
  refine (cellK_apply _ _ _ _ _ _ _ _ _ _ p c rfl _ _ _).trans ?_
  exact cell_congr (fun k => v138_row B p k) (fun k => h3_row B p k) c

theorem v350_row : v350 B (ix2 p (0 : Fin 1)) = act (PK B) (dn4 (PK B) (row B p)) := by
  unfold v350 k0_pay46
  dsimp only
  refine (denseK_apply _ rfl _ _ _ _ _ _ p 0).trans ?_
  exact lin_congr (fun k => v346_row B p k) 0

theorem h5_row (c : Fin 2) : h5 B (ix2 p c) = dn5 (PK B) (row B p) c := by
  unfold h5 k0_pay48 v352 k0_pay47
  dsimp only
  refine (cellK_apply _ _ _ _ _ _ _ _ _ _ p c rfl _ _ _).trans ?_
  exact cell_congr (fun k => v167_row B p k) (fun k => v346_row B p k) c

theorem v380_row : v380 B (ix2 p (0 : Fin 1)) = act (PK B) (dn5 (PK B) (row B p)) := by
  unfold v380 k0_pay49
  dsimp only
  refine (denseK_apply _ rfl _ _ _ _ _ _ p 0).trans ?_
  exact lin_congr (fun k => h5_row B p k) 0

theorem v406_row (c : Fin 2) : v406 B (ix2 p c) = dn6 (PK B) (row B p) c := by
  unfold v406 k0_pay50
  dsimp only
  refine (cellK_apply _ _ _ _ _ _ _ _ _ _ p c rfl _ _ _).trans ?_
  exact cell_congr (fun k => v196_row B p k) (fun k => h5_row B p k) c

/-! ## The stored block -/

/-- Row p of the block the body stores is the network's result row for row p of the input block. -/
theorem kout_row (i : Fin 7) : kout B (ix2 p i) = out (PK B) (row B p) i := by
  unfold kout k0_pay1
  dsimp only
  refine (seven_cols_apply _ _ _ _ _ _ _ _ p i).trans ?_
  unfold out
  match i with
  | ⟨0, _⟩ => exact v260_row B p
  | ⟨1, _⟩ => exact v290_row B p
  | ⟨2, _⟩ => exact v320_row B p
  | ⟨3, _⟩ => exact v350_row B p
  | ⟨4, _⟩ => exact v380_row B p
  | ⟨5, _⟩ =>
    refine (denseK_apply _ rfl _ _ _ _ _ _ p 0).trans ?_
    exact lin_congr (fun k => v406_row B p k) 0
  | ⟨6, _⟩ =>
    refine (denseK_apply _ rfl _ _ _ _ _ _ p 0).trans ?_
    refine lin_congr (fun k => ?_) 0
    refine (cellK_apply _ _ _ _ _ _ _ _ _ _ p k rfl _ _ _).trans ?_
    exact cell_congr (fun k' => v225_row B p k') (fun k' => v406_row B p k') k

end Cert.KernelIdeal.Rows

end
-- ==== Proof.KernelValue.lean ====
/-
  From blocks to the whole array.

  Grid point t stages rows 1024·t to 1024·t + 1023 of the input and all twelve parameter arrays (the six biases as the
  one-row matrices the host reshaped them to), runs the body, and writes the result block back to the same rows of the
  result array. The body's result depends on each row of its input block alone, so what point t writes back is block t of
  ONE whole-array function: the network applied to every row of the input. The 2048 blocks cover the result array, so
  after the run the result array is that function of the argument arrays.
-/
import proofs.«130514_j56839597195499_2_alg».proof.Proof.Gen.KernelIdeal.Value
import proofs.«130514_j56839597195499_2_alg».proof.Proof.KernelRows
import Idealize.ShloMosaic.Lib.StableHlo.Run

set_option maxRecDepth 16384

noncomputable section

namespace Cert.KernelIdeal.RefValue

open Cert.KernelIdeal Cert.KernelIdeal.Gen Cert.KernelIdeal.Value Cert.KernelIdeal.Rows
open Idealize.ShloMosaic Idealize.ShloMosaic.TcCoe Idealize.SL.Sem Idealize.ShloMosaic.ValueIdx Cert.GruLayers Cert.GruNet
open Idealize.ShloMosaic.Pipeline (Dat)

variable (m : (ℓ : Loc nD τ sig) → Buf (Elt Ideal) ℓ) (ρ : Dev nD → PrngReg)

/-- The network's parameters read off the launch memory. -/
def Pm (c : Dev nD) : Params :=
  paramsOf (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))

/-- The thirteen blocks grid point t stages. -/
def Bt (c : Dev nD) (t : Fin cfg0.N) : Blk :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t⟩

theorem hz : (![0, 0] : Fin 2 → Nat) = fun _ => 0 := funext fun a => by fin_cases a <;> rfl

/-- The printed index maps, decided over the grid: the input's and the result's block move with the point along the
    rows, and every parameter window stays at its one block. -/
theorem idx_facts : ∀ t : Fin cfg0.N,
    win0_0.index t (0 : Fin 2) = t.val ∧ win0_0.index t (1 : Fin 2) = 0
    ∧ win0_13.index t (0 : Fin 2) = t.val ∧ win0_13.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) ∧ (∀ a : Fin 2, win0_11.index t a = 0) ∧ (∀ a : Fin 2, win0_12.index t a = 0) :=
  (by decide +kernel : ∀ t : Fin grid0.N, _)

/-! ## The host's six reshapes before the region -/

theorem V_v0 (c : Dev nD) : (V m c main_v0 : S1x6.Idx → EReal) = shapeCast S1x6 (m ((c : Thread nD τ).loc main_arg3)) shapeCasts_S6_S1x6 := by
  dsimp only [Gen.V, Gen.hostOps0]; after_results; rfl
theorem V_v1 (c : Dev nD) : (V m c main_v1 : S1x6.Idx → EReal) = shapeCast S1x6 (m ((c : Thread nD τ).loc main_arg4)) shapeCasts_S6_S1x6 := by
  dsimp only [Gen.V, Gen.hostOps0]; after_results; rfl
theorem V_v2 (c : Dev nD) : (V m c main_v2 : S1x2.Idx → EReal) = shapeCast S1x2 (m ((c : Thread nD τ).loc main_arg6)) shapeCasts_S2_S1x2 := by
  dsimp only [Gen.V, Gen.hostOps0]; after_results; rfl
theorem V_v3 (c : Dev nD) : (V m c main_v3 : S1x6.Idx → EReal) = shapeCast S1x6 (m ((c : Thread nD τ).loc main_arg9)) shapeCasts_S6_S1x6 := by
  dsimp only [Gen.V, Gen.hostOps0]; after_results; rfl
theorem V_v4 (c : Dev nD) : (V m c main_v4 : S1x6.Idx → EReal) = shapeCast S1x6 (m ((c : Thread nD τ).loc main_arg10)) shapeCasts_S6_S1x6 := by
  dsimp only [Gen.V, Gen.hostOps0]; after_results; rfl
theorem V_v5 (c : Dev nD) : (V m c main_v5 : S1x1.Idx → EReal) = shapeCast S1x1 (m ((c : Thread nD τ).loc main_arg12)) shapeCasts_S1_S1x1 := by
  dsimp only [Gen.V, Gen.hostOps0]; after_results; rfl

/-! ## Each parameter window's block is its whole array -/

theorem blk1 (c : Dev nD) (t : Fin cfg0.N) (y : S6x2.Idx) : iblk m c 1 t y = (m ((c : Thread nD τ).loc main_arg1)) y := by
  obtain ⟨-, -, -, -, h1, h2, h3, h4, h5, h6, h7, h8, h9, h10, h11, h12⟩ := idx_facts t
  have e : ((cfg0.win 1).blk t).view.emb y = y := funext fun a => Fin.ext (by
    match a with
    | ⟨0, _⟩ => show win0_1.index t (0 : Fin 2) * 6 + 1 * (y 0).val = (y 0).val; have := h1 0; omega
    | ⟨1, _⟩ => show win0_1.index t (1 : Fin 2) * 2 + 1 * (y 1).val = (y 1).val; have := h1 1; omega)
  show V m c main_arg1 (((cfg0.win 1).blk t).view.emb y) = _
  rw [e]
  rw [V_main_arg1 m c]

theorem blk2 (c : Dev nD) (t : Fin cfg0.N) (y : S6x2.Idx) : iblk m c 2 t y = (m ((c : Thread nD τ).loc main_arg2)) y := by
  obtain ⟨-, -, -, -, h1, h2, h3, h4, h5, h6, h7, h8, h9, h10, h11, h12⟩ := idx_facts t
  have e : ((cfg0.win 2).blk t).view.emb y = y := funext fun a => Fin.ext (by
    match a with
    | ⟨0, _⟩ => show win0_2.index t (0 : Fin 2) * 6 + 1 * (y 0).val = (y 0).val; have := h2 0; omega
    | ⟨1, _⟩ => show win0_2.index t (1 : Fin 2) * 2 + 1 * (y 1).val = (y 1).val; have := h2 1; omega)
  show V m c main_arg2 (((cfg0.win 2).blk t).view.emb y) = _
  rw [e]
  rw [V_main_arg2 m c]

theorem blk3 (c : Dev nD) (t : Fin cfg0.N) (y : S1x6.Idx) : iblk m c 3 t y = shapeCast S1x6 (m ((c : Thread nD τ).loc main_arg3)) shapeCasts_S6_S1x6 y := by
  obtain ⟨-, -, -, -, h1, h2, h3, h4, h5, h6, h7, h8, h9, h10, h11, h12⟩ := idx_facts t
  have e : ((cfg0.win 3).blk t).view.emb y = y := funext fun a => Fin.ext (by
    match a with
    | ⟨0, _⟩ => show win0_3.index t (0 : Fin 2) * 1 + 1 * (y 0).val = (y 0).val; have := h3 0; omega
    | ⟨1, _⟩ => show win0_3.index t (1 : Fin 2) * 6 + 1 * (y 1).val = (y 1).val; have := h3 1; omega)
  show V m c main_v0 (((cfg0.win 3).blk t).view.emb y) = _
  rw [e]
  rw [V_v0 m c]

theorem blk4 (c : Dev nD) (t : Fin cfg0.N) (y : S1x6.Idx) : iblk m c 4 t y = shapeCast S1x6 (m ((c : Thread nD τ).loc main_arg4)) shapeCasts_S6_S1x6 y := by
  obtain ⟨-, -, -, -, h1, h2, h3, h4, h5, h6, h7, h8, h9, h10, h11, h12⟩ := idx_facts t
  have e : ((cfg0.win 4).blk t).view.emb y = y := funext fun a => Fin.ext (by
    match a with
    | ⟨0, _⟩ => show win0_4.index t (0 : Fin 2) * 1 + 1 * (y 0).val = (y 0).val; have := h4 0; omega
    | ⟨1, _⟩ => show win0_4.index t (1 : Fin 2) * 6 + 1 * (y 1).val = (y 1).val; have := h4 1; omega)
  show V m c main_v1 (((cfg0.win 4).blk t).view.emb y) = _
  rw [e]
  rw [V_v1 m c]

theorem blk5 (c : Dev nD) (t : Fin cfg0.N) (y : S2x6.Idx) : iblk m c 5 t y = (m ((c : Thread nD τ).loc main_arg5)) y := by
  obtain ⟨-, -, -, -, h1, h2, h3, h4, h5, h6, h7, h8, h9, h10, h11, h12⟩ := idx_facts t
  have e : ((cfg0.win 5).blk t).view.emb y = y := funext fun a => Fin.ext (by
    match a with
    | ⟨0, _⟩ => show win0_5.index t (0 : Fin 2) * 2 + 1 * (y 0).val = (y 0).val; have := h5 0; omega
    | ⟨1, _⟩ => show win0_5.index t (1 : Fin 2) * 6 + 1 * (y 1).val = (y 1).val; have := h5 1; omega)
  show V m c main_arg5 (((cfg0.win 5).blk t).view.emb y) = _
  rw [e]
  rw [V_main_arg5 m c]

theorem blk6 (c : Dev nD) (t : Fin cfg0.N) (y : S1x2.Idx) : iblk m c 6 t y = shapeCast S1x2 (m ((c : Thread nD τ).loc main_arg6)) shapeCasts_S2_S1x2 y := by
  obtain ⟨-, -, -, -, h1, h2, h3, h4, h5, h6, h7, h8, h9, h10, h11, h12⟩ := idx_facts t
  have e : ((cfg0.win 6).blk t).view.emb y = y := funext fun a => Fin.ext (by
    match a with
    | ⟨0, _⟩ => show win0_6.index t (0 : Fin 2) * 1 + 1 * (y 0).val = (y 0).val; have := h6 0; omega
    | ⟨1, _⟩ => show win0_6.index t (1 : Fin 2) * 2 + 1 * (y 1).val = (y 1).val; have := h6 1; omega)
  show V m c main_v2 (((cfg0.win 6).blk t).view.emb y) = _
  rw [e]
  rw [V_v2 m c]

theorem blk7 (c : Dev nD) (t : Fin cfg0.N) (y : S6x2.Idx) : iblk m c 7 t y = (m ((c : Thread nD τ).loc main_arg7)) y := by
  obtain ⟨-, -, -, -, h1, h2, h3, h4, h5, h6, h7, h8, h9, h10, h11, h12⟩ := idx_facts t
  have e : ((cfg0.win 7).blk t).view.emb y = y := funext fun a => Fin.ext (by
    match a with
    | ⟨0, _⟩ => show win0_7.index t (0 : Fin 2) * 6 + 1 * (y 0).val = (y 0).val; have := h7 0; omega
    | ⟨1, _⟩ => show win0_7.index t (1 : Fin 2) * 2 + 1 * (y 1).val = (y 1).val; have := h7 1; omega)
  show V m c main_arg7 (((cfg0.win 7).blk t).view.emb y) = _
  rw [e]
  rw [V_main_arg7 m c]

theorem blk8 (c : Dev nD) (t : Fin cfg0.N) (y : S6x2.Idx) : iblk m c 8 t y = (m ((c : Thread nD τ).loc main_arg8)) y := by
  obtain ⟨-, -, -, -, h1, h2, h3, h4, h5, h6, h7, h8, h9, h10, h11, h12⟩ := idx_facts t
  have e : ((cfg0.win 8).blk t).view.emb y = y := funext fun a => Fin.ext (by
    match a with
    | ⟨0, _⟩ => show win0_8.index t (0 : Fin 2) * 6 + 1 * (y 0).val = (y 0).val; have := h8 0; omega
    | ⟨1, _⟩ => show win0_8.index t (1 : Fin 2) * 2 + 1 * (y 1).val = (y 1).val; have := h8 1; omega)
  show V m c main_arg8 (((cfg0.win 8).blk t).view.emb y) = _
  rw [e]
  rw [V_main_arg8 m c]

theorem blk9 (c : Dev nD) (t : Fin cfg0.N) (y : S1x6.Idx) : iblk m c 9 t y = shapeCast S1x6 (m ((c : Thread nD τ).loc main_arg9)) shapeCasts_S6_S1x6 y := by
  obtain ⟨-, -, -, -, h1, h2, h3, h4, h5, h6, h7, h8, h9, h10, h11, h12⟩ := idx_facts t
  have e : ((cfg0.win 9).blk t).view.emb y = y := funext fun a => Fin.ext (by
    match a with
    | ⟨0, _⟩ => show win0_9.index t (0 : Fin 2) * 1 + 1 * (y 0).val = (y 0).val; have := h9 0; omega
    | ⟨1, _⟩ => show win0_9.index t (1 : Fin 2) * 6 + 1 * (y 1).val = (y 1).val; have := h9 1; omega)
  show V m c main_v3 (((cfg0.win 9).blk t).view.emb y) = _
  rw [e]
  rw [V_v3 m c]

theorem blk10 (c : Dev nD) (t : Fin cfg0.N) (y : S1x6.Idx) : iblk m c 10 t y = shapeCast S1x6 (m ((c : Thread nD τ).loc main_arg10)) shapeCasts_S6_S1x6 y := by
  obtain ⟨-, -, -, -, h1, h2, h3, h4, h5, h6, h7, h8, h9, h10, h11, h12⟩ := idx_facts t
  have e : ((cfg0.win 10).blk t).view.emb y = y := funext fun a => Fin.ext (by
    match a with
    | ⟨0, _⟩ => show win0_10.index t (0 : Fin 2) * 1 + 1 * (y 0).val = (y 0).val; have := h10 0; omega
    | ⟨1, _⟩ => show win0_10.index t (1 : Fin 2) * 6 + 1 * (y 1).val = (y 1).val; have := h10 1; omega)
  show V m c main_v4 (((cfg0.win 10).blk t).view.emb y) = _
  rw [e]
  rw [V_v4 m c]

theorem blk11 (c : Dev nD) (t : Fin cfg0.N) (y : S1x2.Idx) : iblk m c 11 t y = (m ((c : Thread nD τ).loc main_arg11)) y := by
  obtain ⟨-, -, -, -, h1, h2, h3, h4, h5, h6, h7, h8, h9, h10, h11, h12⟩ := idx_facts t
  have e : ((cfg0.win 11).blk t).view.emb y = y := funext fun a => Fin.ext (by
    match a with
    | ⟨0, _⟩ => show win0_11.index t (0 : Fin 2) * 1 + 1 * (y 0).val = (y 0).val; have := h11 0; omega
    | ⟨1, _⟩ => show win0_11.index t (1 : Fin 2) * 2 + 1 * (y 1).val = (y 1).val; have := h11 1; omega)
  show V m c main_arg11 (((cfg0.win 11).blk t).view.emb y) = _
  rw [e]
  rw [V_main_arg11 m c]

theorem blk12 (c : Dev nD) (t : Fin cfg0.N) (y : S1x1.Idx) : iblk m c 12 t y = shapeCast S1x1 (m ((c : Thread nD τ).loc main_arg12)) shapeCasts_S1_S1x1 y := by
  obtain ⟨-, -, -, -, h1, h2, h3, h4, h5, h6, h7, h8, h9, h10, h11, h12⟩ := idx_facts t
  have e : ((cfg0.win 12).blk t).view.emb y = y := funext fun a => Fin.ext (by
    match a with
    | ⟨0, _⟩ => show win0_12.index t (0 : Fin 2) * 1 + 1 * (y 0).val = (y 0).val; have := h12 0; omega
    | ⟨1, _⟩ => show win0_12.index t (1 : Fin 2) * 1 + 1 * (y 1).val = (y 1).val; have := h12 1; omega)
  show V m c main_v5 (((cfg0.win 12).blk t).view.emb y) = _
  rw [e]
  rw [V_v5 m c]

/-- The parameters the body reads off its blocks are the parameters of the launch memory: the weight blocks are the
    weight arrays, and each bias block is its bias vector laid as one row. -/
theorem params_eq (c : Dev nD) (t : Fin cfg0.N) : PK (Bt m c t) = Pm m c := by
  apply Params.ext
  · funext j k
    exact blk1 m c t _
  · funext j k
    exact blk2 m c t _
  · funext j
    show k0_pay5 (iblk m c 3 t) (ix2 (0 : Fin 1) j) = _
    unfold k0_pay5
    exact (congrFun (shapeCast_self _ _) _).trans ((blk3 m c t _).trans (shapeCast_a_1a_apply _ _ 0 j))
  · funext j
    show k0_pay6 (iblk m c 4 t) (ix2 (0 : Fin 1) j) = _
    unfold k0_pay6
    exact (congrFun (shapeCast_self _ _) _).trans ((blk4 m c t _).trans (shapeCast_a_1a_apply _ _ 0 j))
  · funext j k
    exact blk5 m c t _
  · funext j
    show k0_pay7 (iblk m c 6 t) (ix2 (0 : Fin 1) j) = _
    unfold k0_pay7
    exact (congrFun (shapeCast_self _ _) _).trans ((blk6 m c t _).trans (shapeCast_a_1a_apply _ _ 0 j))
  · funext j k
    exact blk7 m c t _
  · funext j k
    exact blk8 m c t _
  · funext j
    show k0_pay8 (iblk m c 9 t) (ix2 (0 : Fin 1) j) = _
    unfold k0_pay8
    exact (congrFun (shapeCast_self _ _) _).trans ((blk9 m c t _).trans (shapeCast_a_1a_apply _ _ 0 j))
  · funext j
    show k0_pay9 (iblk m c 10 t) (ix2 (0 : Fin 1) j) = _
    unfold k0_pay9
    exact (congrFun (shapeCast_self _ _) _).trans ((blk10 m c t _).trans (shapeCast_a_1a_apply _ _ 0 j))
  · funext j k
    exact blk11 m c t _
  · funext j
    show k0_pay10 (iblk m c 12 t) (ix2 (0 : Fin 1) j) = _
    unfold k0_pay10
    exact (congrFun (shapeCast_self _ _) _).trans ((blk12 m c t _).trans (shapeCast_a_1a_apply _ _ 0 j))

/-! ## What a point writes back -/

/-- The body's result as the generated frame states it (every reused state written out again at each use) is the one term
    over the named states. -/
theorem out_eq (B : Blk) :
    out0_13 B.x0 B.x1 B.x2 B.x3 B.x4 B.x5 B.x6 B.x7 B.x8 B.x9 B.x10 B.x11 B.x12 = kout B := by
  unfold out0_13
  rw [View.canon_unit_zero hz]
  simp only [View.ld_unit_zero (S := S1024x18) hz, View.ld_unit_zero (S := S6x2) hz, View.ld_unit_zero (S := S1x6) hz,
    View.ld_unit_zero (S := S2x6) hz, View.ld_unit_zero (S := S1x2) hz, View.ld_unit_zero (S := S1x1) hz]
  rfl

/-- WHAT POINT t WRITES BACK is block t of the network applied to every row of the input. -/
theorem flushed_eq (c : Dev nD) (t : Fin cfg0.N) :
    (dats m 0 c).flushed 13 t
      = ((cfg0.win 13).blk t).view.read (Elt Ideal) (G (Pm m c) (m ((c : Thread nD τ).loc main_arg0))) := by
  rw [flushed13]
  have hout := out_eq (Bt m c t)
  obtain ⟨e0, e1, e2, e3, -⟩ := idx_facts t
  refine funext fun (j : S1024x7.Idx) => ?_
  obtain ⟨p, i, rfl⟩ : ∃ (p : Fin 1024) (i : Fin 7), j = ix2 p i := ⟨j 0, j 1, eq_ix2 j⟩
  have hi : (((cfg0.win 13).blk t).view.emb (ix2 p i)) 1 = i :=
    Fin.ext (by show win0_13.index t (1 : Fin 2) * 7 + 1 * i.val = i.val; omega)
  have hr : ∀ q : Fin 18, iblk m c 0 t (ix2 p q)
      = (m ((c : Thread nD τ).loc main_arg0)) (ix2 ((((cfg0.win 13).blk t).view.emb (ix2 p i)) 0) q) := fun q => by
    rw [← V_main_arg0 m c]
    show V m c main_arg0 (((cfg0.win 0).blk t).view.emb (ix2 p q)) = _
    refine congrArg _ (funext fun a => Fin.ext ?_)
    match a with
    | ⟨0, _⟩ =>
      show win0_0.index t (0 : Fin 2) * 1024 + 1 * p.val = win0_13.index t (0 : Fin 2) * 1024 + 1 * p.val
      omega
    | ⟨1, _⟩ =>
      show win0_0.index t (1 : Fin 2) * 18 + 1 * q.val = q.val
      omega
  show out0_13 (Bt m c t).x0 (Bt m c t).x1 (Bt m c t).x2 (Bt m c t).x3 (Bt m c t).x4 (Bt m c t).x5 (Bt m c t).x6
      (Bt m c t).x7 (Bt m c t).x8 (Bt m c t).x9 (Bt m c t).x10 (Bt m c t).x11 (Bt m c t).x12 (ix2 p i)
    = out (Pm m c) (fun q => (m ((c : Thread nD τ).loc main_arg0)) (ix2 ((((cfg0.win 13).blk t).view.emb (ix2 p i)) 0) q))
        ((((cfg0.win 13).blk t).view.emb (ix2 p i)) 1)
  rw [hout, kout_row, params_eq, hi]
  exact congrArg (fun R => out (Pm m c) R i) (funext hr)

/-- An index of the result array is in point t's block iff each coordinate is in the block's range on its axis. -/
theorem mem_blk (t : Fin cfg0.N) (i : S2097152x7.Idx) :
    i ∈ ((cfg0.win 13).blk t).view.set ↔ ∀ a : Fin 2, win0_13.index t a * S1024x7.size a ≤ (i a).val
      ∧ (i a).val < win0_13.index t a * S1024x7.size a + S1024x7.size a := by
  show i ∈ ((View.whole main_v6).slice (win0_13.rect t)).set ↔ _
  rw [View.set_slice_whole, Rect.mem_set_unit]
  exact Iff.rfl

/-- Every index of the result array is in some point's block: row r is in block r / 1024. -/
theorem cover (i : S2097152x7.Idx) :
    ∃ t : Fin cfg0.N, (cfg0.win 13).flush t = true ∧ i ∈ ((cfg0.win 13).blk t).view.set := by
  have h0 : (i 0).val < 2097152 := (i 0).isLt
  have h1 : (i 1).val < 7 := (i 1).isLt
  have hN : cfg0.N = 2048 := rfl
  refine ⟨⟨(i 0).val / 1024, by omega⟩, flush0_13 _, ?_⟩
  obtain ⟨-, -, e2, e3, -⟩ := idx_facts ⟨(i 0).val / 1024, by omega⟩
  rw [mem_blk]
  intro a
  match a with
  | ⟨0, _⟩ =>
    show win0_13.index _ (0 : Fin 2) * 1024 ≤ (i 0).val ∧ (i 0).val < win0_13.index _ (0 : Fin 2) * 1024 + 1024
    rw [e2]
    show (i 0).val / 1024 * 1024 ≤ (i 0).val ∧ (i 0).val < (i 0).val / 1024 * 1024 + 1024
    omega
  | ⟨1, _⟩ =>
    show win0_13.index _ (1 : Fin 2) * 7 ≤ (i 1).val ∧ (i 1).val < win0_13.index _ (1 : Fin 2) * 7 + 7
    rw [e3]
    omega

/-- THE RESULT ARRAY after the run: the network applied to every row of the input. -/
theorem final (c : Dev nD) : (dats m 0 c).arrAt 13 cfg0.N = G (Pm m c) (m ((c : Thread nD τ).loc main_arg0)) :=
  (dats m 0 c).arrAt_eq_of_cover 13 (G (Pm m c) (m ((c : Thread nD τ).loc main_arg0))) (fun t _ => flushed_eq m c t) cover

/-- The kernel's run, read: the result array is the network applied to every row, the arguments unchanged. -/
theorem run : θ_run defs (onTc (τ := τ) (main (F := Ideal))) ⟨m, fun _ => 0, ρ⟩ fun r => ∀ c : Dev nD,
      r.2.mem ((c : Thread nD τ).loc main_v6) = G (Pm m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (run_blocks m ρ)

end Cert.KernelIdeal.RefValue

end
-- ==== Proof.RefRows.lean ====
/-
  The reference program's result, read one entry at a time.

  The reference applies every operation to whole arrays of 2097152 rows. Its run names each array that is used more than
  once: per cell the input gates, the hidden gates, the update gate and the new state. Each named state is read here at
  (p, c): it is the corresponding state of the network applied to row p of the input, with the parameters read off the
  twelve parameter arrays. A joint's input pair reaches a cell by another route than in the kernel (the two bands of
  columns stacked along a middle axis, one joint cut out of the last axis), with the same two entries of the row at the end.
-/
import proofs.«130514_j56839597195499_2_alg».proof.Proof.Gen.ReferenceIdeal.Run
import proofs.«130514_j56839597195499_2_alg».proof.Proof.Spec

set_option maxRecDepth 16384

noncomputable section

namespace Cert.ReferenceIdeal.Rows

open Cert.ReferenceIdeal Cert.ReferenceIdeal.Gen Cert.ReferenceIdeal.Value Idealize.ShloMosaic Idealize.ShloMosaic.ValueIdx
open Idealize.ShloMosaic.StableHlo Cert.GruLayers Cert.GruNet

variable (V0 : Valuation τ sig (Elt Ideal))

/-- The network's parameters as the reference sees them: the twelve parameter arrays as launched. -/
def PR : Params :=
  paramsOf (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))

variable (p : Fin 2097152)

/-- Row p of the input array. -/
abbrev rowR : Fin 18 → EReal := fun q => V0 (Proc.devRef .tc main_arg0) (ix2 p q)

/-- Joint i's (position, velocity) pair as the reference assembles it. -/
theorem xinH (o : ℕ) (i : Fin 7) (hi : i.val = o) (hs : S2097152x2x7.Slices ![0, 0, o] S2097152x2x1)
    (hc : S2097152x2x1.ShapeCasts S2097152x2) (k : Fin 2) :
    shapeCast S2097152x2 (extractStridedSlice S2097152x2x1 ![0, 0, o] (res_main_v5 V0) hs) hc (ix2 p k)
      = xin (rowR V0 p) i k := by
  refine (cut_last_apply o (res_main_v5 V0) hs hc p k i hi).trans ?_
  unfold res_main_v5 xin
  refine (stack_apply _ _ _ p k i).trans ?_
  exact if_congr Iff.rfl
    ((band_mid_apply _ _ p 0 i).trans (slice2_axis1_apply 4 _ _ p i (jc i) rfl))
    ((band_mid_apply _ _ p 0 i).trans (slice2_axis1_apply 11 _ _ p i (jdc i) rfl))

/-- The zero state the upward chain starts from. -/
theorem zeroH (k : Fin 2) : res_main_v6 V0 (ix2 p k) = zeroW := by
  unfold res_main_v6
  exact broadcastInDim_scalar_apply _ _ _

/-! ## The upward chain -/

theorem u1 (c : Fin 2) : res_main_v46 V0 (ix2 p c) = up1 (PR V0) (rowR V0 p) c := by
  unfold res_main_v46 res_main_v38 res_main_v13 res_main_v18
  refine (cellH_apply _ _ _ _ _ _ _ _ _ _ p c rfl _ _ _ _ _).trans ?_
  exact cell_congr (fun k => xinH V0 p 6 6 rfl _ _ k) (fun k => zeroH V0 p k) c

theorem u2 (c : Fin 2) : res_main_v86 V0 (ix2 p c) = up2 (PR V0) (rowR V0 p) c := by
  unfold res_main_v86 res_main_v78 res_main_v53 res_main_v58
  refine (cellH_apply _ _ _ _ _ _ _ _ _ _ p c rfl _ _ _ _ _).trans ?_
  exact cell_congr (fun k => xinH V0 p 5 5 rfl _ _ k) (fun k => u1 V0 p k) c

theorem u3 (c : Fin 2) : res_main_v126 V0 (ix2 p c) = up3 (PR V0) (rowR V0 p) c := by
  unfold res_main_v126 res_main_v118 res_main_v93 res_main_v98
  refine (cellH_apply _ _ _ _ _ _ _ _ _ _ p c rfl _ _ _ _ _).trans ?_
  exact cell_congr (fun k => xinH V0 p 4 4 rfl _ _ k) (fun k => u2 V0 p k) c

theorem u4 (c : Fin 2) : res_main_v166 V0 (ix2 p c) = up4 (PR V0) (rowR V0 p) c := by
  unfold res_main_v166 res_main_v158 res_main_v133 res_main_v138
  refine (cellH_apply _ _ _ _ _ _ _ _ _ _ p c rfl _ _ _ _ _).trans ?_
  exact cell_congr (fun k => xinH V0 p 3 3 rfl _ _ k) (fun k => u3 V0 p k) c

theorem u5 (c : Fin 2) : res_main_v206 V0 (ix2 p c) = up5 (PR V0) (rowR V0 p) c := by
  unfold res_main_v206 res_main_v198 res_main_v173 res_main_v178
  refine (cellH_apply _ _ _ _ _ _ _ _ _ _ p c rfl _ _ _ _ _).trans ?_
  exact cell_congr (fun k => xinH V0 p 2 2 rfl _ _ k) (fun k => u4 V0 p k) c

theorem u6 (c : Fin 2) : res_main_v246 V0 (ix2 p c) = up6 (PR V0) (rowR V0 p) c := by
  unfold res_main_v246 res_main_v238 res_main_v213 res_main_v218
  refine (cellH_apply _ _ _ _ _ _ _ _ _ _ p c rfl _ _ _ _ _).trans ?_
  exact cell_congr (fun k => xinH V0 p 1 1 rfl _ _ k) (fun k => u5 V0 p k) c

theorem u7 (c : Fin 2) : res_main_v286 V0 (ix2 p c) = up7 (PR V0) (rowR V0 p) c := by
  unfold res_main_v286 res_main_v278 res_main_v253 res_main_v258
  refine (cellH_apply _ _ _ _ _ _ _ _ _ _ p c rfl _ _ _ _ _).trans ?_
  exact cell_congr (fun k => xinH V0 p 0 0 rfl _ _ k) (fun k => u6 V0 p k) c

/-! ## The observations fused in, and the downward chain -/

theorem d0 (c : Fin 2) : res_main_v292 V0 (ix2 p c) = dn0 (PR V0) (rowR V0 p) c := by
  unfold res_main_v292
  refine (denseH_apply _ rfl _ _ _ _ _ _ _ p c).trans ?_
  refine lin_congr (fun q => (cols42_apply _ _ _ p q).trans ?_) c
  unfold fused
  split
  · next hq => exact slice2_axis1_apply 0 _ _ p ⟨q.val, hq⟩ ⟨q.val, by omega⟩ (Nat.zero_add _).symm
  · exact u7 V0 p _

theorem d1 (c : Fin 2) : res_main_v330 V0 (ix2 p c) = dn1 (PR V0) (rowR V0 p) c := by
  unfold res_main_v330 res_main_v322 res_main_v297 res_main_v302
  refine (cellH_apply _ _ _ _ _ _ _ _ _ _ p c rfl _ _ _ _ _).trans ?_
  exact cell_congr (fun k => u1 V0 p k) (fun k => d0 V0 p k) c

theorem d2 (c : Fin 2) : res_main_v373 V0 (ix2 p c) = dn2 (PR V0) (rowR V0 p) c := by
  unfold res_main_v373 res_main_v365 res_main_v340 res_main_v345
  refine (cellH_apply _ _ _ _ _ _ _ _ _ _ p c rfl _ _ _ _ _).trans ?_
  exact cell_congr (fun k => u2 V0 p k) (fun k => d1 V0 p k) c

theorem d3 (c : Fin 2) : res_main_v416 V0 (ix2 p c) = dn3 (PR V0) (rowR V0 p) c := by
  unfold res_main_v416 res_main_v408 res_main_v383 res_main_v388
  refine (cellH_apply _ _ _ _ _ _ _ _ _ _ p c rfl _ _ _ _ _).trans ?_
  exact cell_congr (fun k => u3 V0 p k) (fun k => d2 V0 p k) c

theorem d4 (c : Fin 2) : res_main_v459 V0 (ix2 p c) = dn4 (PR V0) (rowR V0 p) c := by
  unfold res_main_v459 res_main_v451 res_main_v426 res_main_v431
  refine (cellH_apply _ _ _ _ _ _ _ _ _ _ p c rfl _ _ _ _ _).trans ?_
  exact cell_congr (fun k => u4 V0 p k) (fun k => d3 V0 p k) c

theorem d5 (c : Fin 2) : res_main_v502 V0 (ix2 p c) = dn5 (PR V0) (rowR V0 p) c := by
  unfold res_main_v502 res_main_v494 res_main_v469 res_main_v474
  refine (cellH_apply _ _ _ _ _ _ _ _ _ _ p c rfl _ _ _ _ _).trans ?_
  exact cell_congr (fun k => u5 V0 p k) (fun k => d4 V0 p k) c

theorem d6 (c : Fin 2) : res_main_v545 V0 (ix2 p c) = dn6 (PR V0) (rowR V0 p) c := by
  unfold res_main_v545 res_main_v537 res_main_v512 res_main_v517
  refine (cellH_apply _ _ _ _ _ _ _ _ _ _ p c rfl _ _ _ _ _).trans ?_
  exact cell_congr (fun k => u6 V0 p k) (fun k => d5 V0 p k) c

/-! ## The result -/

/-- Row p of the reference's result is the network's result row for row p of the input. -/
theorem result_row (i : Fin 7) :
    val12 V0 (no_index (Proc.devRef .tc main_v594)) (ix2 p i) = out (PR V0) (rowR V0 p) i := by
  rw [val12_main_v594 V0]
  refine (seven_cols_apply _ _ _ _ _ _ _ _ p i).trans ?_
  unfold out
  match i with
  | ⟨0, _⟩ =>
    refine (denseH_apply _ rfl _ _ _ _ _ _ _ p 0).trans ?_
    exact lin_congr (fun k => d1 V0 p k) 0
  | ⟨1, _⟩ =>
    refine (denseH_apply _ rfl _ _ _ _ _ _ _ p 0).trans ?_
    exact lin_congr (fun k => d2 V0 p k) 0
  | ⟨2, _⟩ =>
    refine (denseH_apply _ rfl _ _ _ _ _ _ _ p 0).trans ?_
    exact lin_congr (fun k => d3 V0 p k) 0
  | ⟨3, _⟩ =>
    refine (denseH_apply _ rfl _ _ _ _ _ _ _ p 0).trans ?_
    exact lin_congr (fun k => d4 V0 p k) 0
  | ⟨4, _⟩ =>
    refine (denseH_apply _ rfl _ _ _ _ _ _ _ p 0).trans ?_
    exact lin_congr (fun k => d5 V0 p k) 0
  | ⟨5, _⟩ =>
    refine (denseH_apply _ rfl _ _ _ _ _ _ _ p 0).trans ?_
    exact lin_congr (fun k => d6 V0 p k) 0
  | ⟨6, _⟩ =>
    refine (denseH_apply _ rfl _ _ _ _ _ _ _ p 0).trans ?_
    refine lin_congr (fun k => ?_) 0
    unfold res_main_v580 res_main_v555 res_main_v560
    refine (cellH_apply _ _ _ _ _ _ _ _ _ _ p k rfl _ _ _ _ _).trans ?_
    exact cell_congr (fun k' => u7 V0 p k') (fun k' => d6 V0 p k') k

/-- The reference's result array is the network applied row by row. -/
theorem result_eq :
    val12 V0 (no_index (Proc.devRef .tc main_v594)) = G (PR V0) (V0 (Proc.devRef .tc main_arg0)) := by
  funext j
  obtain ⟨p, i, rfl⟩ : ∃ (p : Fin 2097152) (i : Fin 7), j = ix2 p i := ⟨j 0, j 1, eq_ix2 j⟩
  exact result_row V0 p i

end Cert.ReferenceIdeal.Rows

end
-- ==== Proof.lean ====
/-
  The kernel and its reference compute one function.

  Both programs apply the same small recurrent network to every row of the input independently: an upward chain of
  seven GRU cells over the joints from last to first, an affine map that fuses the four observations with the last
  upward state, a downward chain of seven cells over the upward states, and after each downward cell an affine map to
  that joint's output (Proof/Spec.lean). The reference applies each operation to the whole array of 2097152 rows; the
  kernel stages 1024 rows at a time and runs the same operations on the block.

  Read at an entry (p, i), each side's result is the network's i-th output for row p (Proof/RefRows.lean for the
  reference's run, Proof/KernelRows.lean for the body on one block, Proof/KernelValue.lean from the blocks to the whole
  array). The two spellings differ only where the extended reals see no difference: the logistic function as one
  operation against the quotient 1 / (1 + e^(−x)), which is its definition there; a bias kept as a one-row matrix against
  a bias vector laid as a row; a joint's input pair set side by side from two columns against the same two entries cut out
  of a stacked array. No algebraic law is used, so the precondition is never opened: the equality holds for every
  extended-real input.

  The ideal pass rewrote nothing in the kernel, so the idealization claim has no conjunct.
-/
import proofs.«130514_j56839597195499_2_alg».proof.Defs
import proofs.«130514_j56839597195499_2_alg».proof.Proof.Gen.Kernel
import proofs.«130514_j56839597195499_2_alg».proof.Proof.Gen.Kernel.Skeleton
import proofs.«130514_j56839597195499_2_alg».proof.Proof.Gen.Kernel.Launch
import proofs.«130514_j56839597195499_2_alg».proof.Proof.Gen.Kernel.Points
import proofs.«130514_j56839597195499_2_alg».proof.Proof.Gen.Kernel.Frame
import proofs.«130514_j56839597195499_2_alg».proof.Proof.Gen.KernelIdeal
import proofs.«130514_j56839597195499_2_alg».proof.Proof.Gen.KernelIdeal.Skeleton
import proofs.«130514_j56839597195499_2_alg».proof.Proof.Gen.KernelIdeal.Launch
import proofs.«130514_j56839597195499_2_alg».proof.Proof.Gen.KernelIdeal.Points
import proofs.«130514_j56839597195499_2_alg».proof.Proof.Gen.KernelIdeal.Frame
import proofs.«130514_j56839597195499_2_alg».proof.Proof.Gen.ReferenceIdeal
import proofs.«130514_j56839597195499_2_alg».proof.Proof.Gen.Pre_finite_inputs
import proofs.«130514_j56839597195499_2_alg».proof.Proof.Gen.KernelIdeal.Value
import proofs.«130514_j56839597195499_2_alg».proof.Proof.Gen.ReferenceIdeal.Run
import proofs.«130514_j56839597195499_2_alg».proof.Proof.KernelValue
import proofs.«130514_j56839597195499_2_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.StableHlo Cert.GruNet

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the thirteen arguments, both programs end with the network applied to every row of the
    input: the kernel block by block, the reference on the whole array. -/
theorem algebraic : Cert.algebraic_KernelIdeal_ReferenceIdeal := by
  intro m ρ m' ρ' _ hagree
  refine ⟨fun c => G (Cert.KernelIdeal.RefValue.Pm m c) (m ((c.tc : Thread Cert.KernelIdeal.nD Cert.KernelIdeal.τ).loc Cert.KernelIdeal.main_arg0)), Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val12_main_v594 (launchContents m' c)).symm.trans
    (Cert.ReferenceIdeal.Rows.result_eq (launchContents m' c))).trans ?_
  obtain ⟨a0, a1, a2, a3, a4, a5, a6, a7, a8, a9, a10, a11, a12⟩ := hagree c
  show G (paramsOf (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg0))
    = G (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0))
  rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
